-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x1024 : Shape := ⟨3, ![128, 128, 1024]⟩
abbrev S128x1024x1024 : Shape := ⟨3, ![128, 1024, 1024]⟩
abbrev S_ : Shape := ⟨0, ![]⟩

class Facts : Prop where
  bcast_S_S128x128x1024 : S_.BroadcastsInDim S128x128x1024 (![] : Fin 0 → Fin S128x128x1024.rank)
  reducesTo_S128x128x1024_S_d0_1_2 : S128x128x1024.ReducesTo [0, 1, 2] S_
  h_S_ : 0 < S_.numel
  bcast_S_S128x1024x1024 : S_.BroadcastsInDim S128x1024x1024 (![] : Fin 0 → Fin S128x1024x1024.rank)
  reducesTo_S128x1024x1024_S_d0_1_2 : S128x1024x1024.ReducesTo [0, 1, 2] S_

variable [Facts]

def fn {F : FTy → Type} [FloatOps F] (main_arg0 : FVec F S128x128x1024 .f32) (main_arg1 : FVec F S128x1024x1024 .f32) : IVec S_ 1 :=
  let main_v0 : FVec F S128x128x1024 .f32 := Host.absf main_arg0
  let main_cst : FVec F S_ .f32 := constant S_ .f32 0x7F800000#32
  let main_v1 : FVec F S128x128x1024 .f32 := broadcastInDim S128x128x1024 ![] bcast_S_S128x128x1024 main_cst
  let main_v2 : IVec S128x128x1024 1 := cmpf .olt main_v0 main_v1
  let main_c : IVec S_ 1 := constantI S_ 1 1#1
  let main_v3 : IVec S_ 1 := (fun x v => Host.reduce IntOp.andi x v reducesTo_S128x128x1024_S_d0_1_2 h_S_) main_v2 main_c
  let main_v4 : FVec F S128x1024x1024 .f32 := Host.absf main_arg1
  let main_cst_0 : FVec F S_ .f32 := constant S_ .f32 0x7F800000#32
  let main_v5 : FVec F S128x1024x1024 .f32 := broadcastInDim S128x1024x1024 ![] bcast_S_S128x1024x1024 main_cst_0
  let main_v6 : IVec S128x1024x1024 1 := cmpf .olt main_v4 main_v5
  let main_c_1 : IVec S_ 1 := constantI S_ 1 1#1
  let main_v7 : IVec S_ 1 := (fun x v => Host.reduce IntOp.andi x v reducesTo_S128x1024x1024_S_d0_1_2 h_S_) main_v6 main_c_1
  let main_v8 : IVec S_ 1 := andi main_v3 main_v7
  main_v8
-- ==== Kernel.lean ====
abbrev S128x128x1024 : Shape := ⟨3, ![128, 128, 1024]⟩
abbrev S128x1024x1024 : Shape := ⟨3, ![128, 1024, 1024]⟩
abbrev S2x128x1024 : Shape := ⟨3, ![2, 128, 1024]⟩
abbrev S2x1024x1024 : Shape := ⟨3, ![2, 1024, 1024]⟩
abbrev S1x128x1024 : Shape := ⟨3, ![1, 128, 1024]⟩
abbrev S128x1024 : Shape := ⟨2, ![128, 1024]⟩
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S128x128x1024, .f32⟩
  | .hbm, ⟨1, _⟩ => ⟨S128x1024x1024, .f32⟩
  | .hbm, ⟨2, _⟩ => ⟨S128x128x1024, .f32⟩
  | .hbm, ⟨3, _⟩ => ⟨S128x128x1024, .f32⟩
  | .local _ .vmem, ⟨0, _⟩ => ⟨S2x128x1024, .f32⟩
  | .local _ .vmem, ⟨1, _⟩ => ⟨S2x128x1024, .f32⟩
  | .local _ .vmem, ⟨2, _⟩ => ⟨S2x1024x1024, .f32⟩
  | .local _ .vmem, ⟨3, _⟩ => ⟨S2x1024x1024, .f32⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | _, _ => ⟨S128x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1 : Index := Scalar.indexCast arg5
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v4 : Index := Scalar.indexCast arg5
  let c0_2 : Index := 0#32
  let c0_3 : Index := 0#32
  ![v4.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  h_S1x128x1024 : 0 < S1x128x1024.numel
  shapeCasts_S1x128x1024_S128x1024 : S1x128x1024.ShapeCasts S128x1024
  h_S1x1024x1024 : 0 < S1x1024x1024.numel
  shapeCasts_S1x1024x1024_S1024x1024 : S1x1024x1024.ShapeCasts S1024x1024
  reduces_S128x1024_S1024 : S128x1024.Reduces [0] S1024
  shapeCasts_S1024_S1x1024 : S1024.ShapeCasts S1x1024
  broadcasts_S1x1024_S128x1024 : S1x1024.Broadcasts S128x1024
  reduces_S128x1024_S128 : S128x1024.Reduces [1] S128
  shapeCasts_S128_S128x1 : S128.ShapeCasts S128x1
  broadcasts_S128x1_S128x1024 : S128x1.Broadcasts S128x1024
  shapeCasts_S128x1024_S1x128x1024 : S128x1024.ShapeCasts S1x128x1024
  bitsLt_bf16_f32 : FTy.bits .bf16 < FTy.bits .f32
  dot_S128x1024_S1024x1024_S128x1024_1_1_0_0_n_n_wf : DotDims.WF S128x1024 S1024x1024 S128x1024 [1] [1] [0] [0] [] []
  dot_S128x1024_S1024x1024_S128x1024_1_0_0_1_n_n_wf : DotDims.WF S128x1024 S1024x1024 S128x1024 [1] [0] [0] [1] [] []
  hrank0 : 0 < grid0.rank
  k0_t1_ok : k0_t1_loop.OK
  k0_off1_inb : ∀ k0_t1 : Fin k0_t1_loop.trips, ∀ a, (k0_off1 k0_t1) a + S1x128x1024.size a ≤ S2x128x1024.size a
  k0_off2_inb : ∀ k0_t1 : Fin k0_t1_loop.trips, ∀ a, (k0_off2 k0_t1) a + S1x1024x1024.size a ≤ S2x1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x1024.size a ≤ S128x128x1024.size a
  hwx0_0 : ∀ i : grid0.Coords, EltTy.bits .f32 = 32 ∨ (Rect.block (s := S128x128x1024) S2x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S128x1024x1024.size a
  hwx0_1 : ∀ i : grid0.Coords, EltTy.bits .f32 = 32 ∨ (Rect.block (s := S128x1024x1024) S2x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x128x1024.size a ≤ S128x128x1024.size a
  hwx0_2 : ∀ i : grid0.Coords, EltTy.bits .f32 = 32 ∨ (Rect.block (s := S128x128x1024) S2x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x128x1024.size a ≤ S128x128x1024.size a
  hwx0_3 : ∀ i : grid0.Coords, EltTy.bits .f32 = 32 ∨ (Rect.block (s := S128x128x1024) S2x128x1024.size (cc0_transform_3 i) (hinb0_3 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S2x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2x128x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x128x1024 : Shape := ⟨3, ![128, 128, 1024]⟩
abbrev S128x1024x1024 : Shape := ⟨3, ![128, 1024, 1024]⟩
abbrev S128x1024x128 : Shape := ⟨3, ![128, 1024, 128]⟩
abbrev S_ : Shape := ⟨0, ![]⟩
abbrev S128x1024 : Shape := ⟨2, ![128, 1024]⟩
abbrev S128x1024x1 : Shape := ⟨3, ![128, 1024, 1]⟩
abbrev S128x128 : Shape := ⟨2, ![128, 128]⟩
abbrev S128x128x1 : Shape := ⟨3, ![128, 128, 1]⟩

abbrev nBuf : Space → Nat
  | .hbm => 62
  | .vmem => 0
  | .smem => 0
  | _ => 0

abbrev bufTy : (tb : Table) → Fin (tcTables nBuf tb) → BufTy
  | .hbm, ⟨0, _⟩ => ⟨S128x128x1024, .f32⟩
  | .hbm, ⟨1, _⟩ => ⟨S128x1024x1024, .f32⟩
  | .hbm, ⟨2, _⟩ => ⟨S128x1024x128, .f32⟩
  | .hbm, ⟨3, _⟩ => ⟨S_, .f32⟩
  | .hbm, ⟨4, _⟩ => ⟨S_, .f32⟩
  | .hbm, ⟨5, _⟩ => ⟨S128x1024x128, .f32⟩
  | .hbm, ⟨6, _⟩ => ⟨S128x1024x128, .i1⟩
  | .hbm, ⟨7, _⟩ => ⟨S_, .f32⟩
  | .hbm, ⟨8, _⟩ => ⟨S128x1024x128, .f32⟩
  | .hbm, ⟨9, _⟩ => ⟨S128x1024x128, .f32⟩
  | .hbm, ⟨10, _⟩ => ⟨S128x1024x128, .f32⟩
  | .hbm, ⟨11, _⟩ => ⟨S128x1024x128, .f32⟩
  | .hbm, ⟨12, _⟩ => ⟨S_, .f32⟩
  | .hbm, ⟨13, _⟩ => ⟨S128x1024, .f32⟩
  | .hbm, ⟨14, _⟩ => ⟨S128x1024x1, .f32⟩
  | .hbm, ⟨15, _⟩ => ⟨S128x1024x1, .f32⟩
  | .hbm, ⟨16, _⟩ => ⟨S_, .f32⟩
  | .hbm, ⟨17, _⟩ => ⟨S128x1024x1, .f32⟩
  | .hbm, ⟨18, _⟩ => ⟨S128x1024x1, .f32⟩
  | .hbm, ⟨19, _⟩ => ⟨S128x1024x128, .f32⟩
  | .hbm, ⟨20, _⟩ => ⟨S128x1024x128, .f32⟩
  | .hbm, ⟨21, _⟩ => ⟨S128x128x1024, .f32⟩
  | .hbm, ⟨22, _⟩ => ⟨S_, .f32⟩
  | .hbm, ⟨23, _⟩ => ⟨S128x128x1024, .f32⟩
  | .hbm, ⟨24, _⟩ => ⟨S128x128x1024, .f32⟩
  | .hbm, ⟨25, _⟩ => ⟨S_, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128x1, .f32⟩
  | .hbm, ⟨31, _⟩ => ⟨S128x128x1024, .f32⟩
  | .hbm, ⟨32, _⟩ => ⟨S128x128x1024, .f32⟩
  | .hbm, ⟨33, _⟩ => ⟨S128x128x1024, .f32⟩
  | .hbm, ⟨34, _⟩ => ⟨S_, .f32⟩
  | .hbm, ⟨35, _⟩ => ⟨S128x128, .f32⟩
  | .hbm, ⟨36, _⟩ => ⟨S128x128x1, .f32⟩
  | .hbm, ⟨37, _⟩ => ⟨S128x128x1024, .f32⟩
  | .hbm, ⟨38, _⟩ => ⟨S128x128x1024, .f32⟩
  | .hbm, ⟨39, _⟩ => ⟨S_, .f32⟩
  | .hbm, ⟨40, _⟩ => ⟨S128x128x1024, .f32⟩
  | .hbm, ⟨41, _⟩ => ⟨S128x128x1024, .f32⟩
  | .hbm, ⟨42, _⟩ => ⟨S_, .f32⟩
  | .hbm, ⟨43, _⟩ => ⟨S128x128, .f32⟩
  | .hbm, ⟨44, _⟩ => ⟨S128x128x1, .f32⟩
  | .hbm, ⟨45, _⟩ => ⟨S128x128x1024, .f32⟩
  | .hbm, ⟨46, _⟩ => ⟨S128x128x1024, .f32⟩
  | .hbm, ⟨47, _⟩ => ⟨S_, .f32⟩
  | .hbm, ⟨48, _⟩ => ⟨S128x128x1024, .f32⟩
  | .hbm, ⟨49, _⟩ => ⟨S128x128x1024, .i1⟩
  | .hbm, ⟨50, _⟩ => ⟨S_, .f32⟩
  | .hbm, ⟨51, _⟩ => ⟨S_, .f32⟩
  | .hbm, ⟨52, _⟩ => ⟨S128x128x1024, .f32⟩
  | .hbm, ⟨53, _⟩ => ⟨S128x128x1024, .f32⟩
  | .hbm, ⟨54, _⟩ => ⟨S128x128x1024, .f32⟩
  | .hbm, ⟨55, _⟩ => ⟨S128x128x1024, .f32⟩
  | .hbm, ⟨56, _⟩ => ⟨S_, .f32⟩
  | .hbm, ⟨57, _⟩ => ⟨S128x128, .f32⟩
  | .hbm, ⟨58, _⟩ => ⟨S128x128x1, .f32⟩
  | .hbm, ⟨59, _⟩ => ⟨S128x128x1024, .f32⟩
  | .hbm, ⟨60, _⟩ => ⟨S128x128x1024, .f32⟩
  | .hbm, ⟨61, _⟩ => ⟨S128x128x1024, .f32⟩
  | _, _ => ⟨S128x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_cst_10 : Ref sig .tc := ⟨.hbm, 51, rfl⟩
abbrev main_call1_v0 : Ref sig .tc := ⟨.hbm, 52, rfl⟩
abbrev main_call1_v1 : Ref sig .tc := ⟨.hbm, 53, rfl⟩
abbrev main_v32 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  bcast_S_S128x1024x128 : S_.BroadcastsInDim S128x1024x128 (![] : Fin 0 → Fin S128x1024x128.rank)
  reducesTo_S128x1024x128_S128x1024_d2 : S128x1024x128.ReducesTo [2] S128x1024
  h_S_ : 0 < S_.numel
  bcast_S128x1024_S128x1024x1_0_1 : S128x1024.BroadcastsInDim S128x1024x1 (![0, 1] : Fin 2 → Fin S128x1024x1.rank)
  bcast_S_S128x1024x1 : S_.BroadcastsInDim S128x1024x1 (![] : Fin 0 → Fin S128x1024x1.rank)
  bcast_S128x1024x1_S128x1024x128_0_1_2 : S128x1024x1.BroadcastsInDim S128x1024x128 (![0, 1, 2] : Fin 3 → Fin S128x1024x128.rank)
  transposes_S128x1024x128_S128x128x1024_0_2_1 : S128x1024x128.Transposes [0, 2, 1] S128x128x1024
  bcast_S_S128x128x1024 : S_.BroadcastsInDim S128x128x1024 (![] : Fin 0 → Fin S128x128x1024.rank)
  reducesTo_S128x128x1024_S128x128_d2 : S128x128x1024.ReducesTo [2] S128x128
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x128x1_S128x128x1024_0_1_2 : S128x128x1.BroadcastsInDim S128x128x1024 (![0, 1, 2] : Fin 3 → Fin S128x128x1024.rank)
  dot_S128x1024x1024_S128x128x1024_S128x1024x128_2_2_1_1_0_0_wf : DotDims.WF S128x1024x1024 S128x128x1024 S128x1024x128 [2] [2] [1] [1] [0] [0]
  dot_S128x128x1024_S128x1024x1024_S128x128x1024_2_1_1_2_0_0_wf : DotDims.WF S128x128x1024 S128x1024x1024 S128x128x1024 [2] [1] [1] [2] [0] [0]

variable [Facts₀]

def dot_S128x1024x1024_S128x128x1024_S128x1024x128_2_2_1_1_0_0 : DotDims S128x1024x1024 S128x128x1024 S128x1024x128 where
  lhsContracting := [2]
  rhsContracting := [2]
  lhsNonContracting := [1]
  rhsNonContracting := [1]
  lhsBatch := [0]
  rhsBatch := [0]
  wf := dot_S128x1024x1024_S128x128x1024_S128x1024x128_2_2_1_1_0_0_wf
def dot_S128x128x1024_S128x1024x1024_S128x128x1024_2_1_1_2_0_0 : DotDims S128x128x1024 S128x1024x1024 S128x128x1024 where
  lhsContracting := [2]
  rhsContracting := [1]
  lhsNonContracting := [1]
  rhsNonContracting := [2]
  lhsBatch := [0]
  rhsBatch := [0]
  wf := dot_S128x128x1024_S128x1024x1024_S128x128x1024_2_1_1_2_0_0_wf

class Facts : Prop extends Facts₀ where

variable [Facts]
-- ==== Proof.Spec.lean ====
/-
  The function both programs compute, written once over the extended reals.

  For one batch, with `q : Fin 128 → Fin 1024 → EReal` the batch's query rows and `c : Fin 1024 → Fin 1024 → EReal`
  its context rows:
    score a k   = Σ_d q a d · c k d                      (every query row against every context row)
    act a k     = score if score ≥ 0, else 0.1 · score   (the leaky rectifier)
    colNorm k   = √(Σ_a act a k · act a k) + ε           (the norm of column k over the query rows, plus ε)
    logit a k   = (act a k / colNorm k) · 20
    rowMax a    = max(-∞, max_k logit a k)
    expo a k    = exp(logit a k − rowMax a)
    prob a k    = expo a k / Σ_k' expo a k'              (the softmax over the context axis)
    gate a k    = 1 if prob a k · 1024 − Σ_k' prob a k' > 0, else 0
    kept a k    = gate a k · prob a k
    reattn a k  = kept a k / Σ_k' kept a k'
    wctx a d    = Σ_k reattn a k · c k d
  The two result arrays are `reattn` and `wctx` of batch `b`'s matrices at every `(b, a, ·)`.
  Every operation is the extended reals' own (`Ideal.div`, `Ideal.sqrt`, `Ideal.exp`, `max`, the comparison
  `Ideal.cmp`), every literal the value its 32-bit word denotes; nothing here is assumed finite.
-/
import Idealize.ShloMosaic.PureOps.Ideal
import Idealize.ShloMosaic.Lib.ValueIdx

noncomputable section

namespace Cert.Attn

open Idealize.ShloMosaic Idealize.ShloMosaic.ValueIdx

/-- The query array's and the two result arrays' shape, and the context array's. -/
abbrev SQ : Shape := ⟨3, ![128, 128, 1024]⟩
abbrev SC : Shape := ⟨3, ![128, 1024, 1024]⟩

/-- The leaky rectifier at one entry: `x` where `x ≥ 0`, else `0.1 · x` (the word `0x3DCCCCCD`). -/
def leaky (x : EReal) : EReal :=
  Scalar.select (Ideal.cmp .oge x (Ideal.ofBits .f32 0x00000000#32)) x (Ideal.ofBits .f32 0x3DCCCCCD#32 * x)

section Batch

variable (q : Fin 128 → Fin 1024 → EReal) (c : Fin 1024 → Fin 1024 → EReal)

def score (a : Fin 128) (k : Fin 1024) : EReal := ∑ d : Fin 1024, q a d * c k d

def act (a : Fin 128) (k : Fin 1024) : EReal := leaky (score q c a k)

def colNorm (k : Fin 1024) : EReal :=
  Ideal.sqrt (∑ a : Fin 128, act q c a k * act q c a k) + Ideal.ofBits .f32 0x322BCC77#32

def logit (a : Fin 128) (k : Fin 1024) : EReal :=
  Ideal.div (act q c a k) (colNorm q c k) * Ideal.ofBits .f32 0x41A00000#32

def rowMax (a : Fin 128) : EReal :=
  max (Ideal.ofBits .f32 0xFF800000#32)
    ((Finset.univ : Finset (Fin 1024)).fold max (Ideal.ofBits .f32 0xFF800000#32) (fun k => logit q c a k))

def expo (a : Fin 128) (k : Fin 1024) : EReal := Ideal.exp (logit q c a k - rowMax q c a)

def prob (a : Fin 128) (k : Fin 1024) : EReal := Ideal.div (expo q c a k) (∑ k' : Fin 1024, expo q c a k')

def gate (a : Fin 128) (k : Fin 1024) : EReal :=
  Scalar.select
    (Ideal.cmp .ogt (prob q c a k * Ideal.ofBits .f32 0x44800000#32 - ∑ k' : Fin 1024, prob q c a k')
      (Ideal.ofBits .f32 0x00000000#32))
    (Ideal.ofBits .f32 0x3F800000#32) (Ideal.ofBits .f32 0x00000000#32)

def kept (a : Fin 128) (k : Fin 1024) : EReal := gate q c a k * prob q c a k

def reattn (a : Fin 128) (k : Fin 1024) : EReal := Ideal.div (kept q c a k) (∑ k' : Fin 1024, kept q c a k')

def wctx (a : Fin 128) (d : Fin 1024) : EReal := ∑ k : Fin 1024, reattn q c a k * c k d

end Batch

/-- Batch `b`'s query rows and context rows, read off the whole arrays. -/
def qAt (Q : SQ.Idx → EReal) (b : Fin 128) : Fin 128 → Fin 1024 → EReal := fun a d => Q (ix3 b a d)
def cAt (C : SC.Idx → EReal) (b : Fin 128) : Fin 1024 → Fin 1024 → EReal := fun k d => C (ix3 b k d)

/-- The re-weighted attention array: at `(b, a, k)`, `reattn` of batch `b`. -/
def reattnArr (Q : SQ.Idx → EReal) (C : SC.Idx → EReal) : SQ.Idx → EReal :=
  fun i => reattn (qAt Q (i 0)) (cAt C (i 0)) (i 1) (i 2)

/-- The weighted-context array: at `(b, a, d)`, `wctx` of batch `b`. -/
def wctxArr (Q : SQ.Idx → EReal) (C : SC.Idx → EReal) : SQ.Idx → EReal :=
  fun i => wctx (qAt Q (i 0)) (cAt C (i 0)) (i 1) (i 2)

theorem reattnArr_ix3 (Q : SQ.Idx → EReal) (C : SC.Idx → EReal) (b a : Fin 128) (k : Fin 1024) :
    reattnArr Q C (ix3 b a k) = reattn (qAt Q b) (cAt C b) a k := rfl

theorem wctxArr_ix3 (Q : SQ.Idx → EReal) (C : SC.Idx → EReal) (b a : Fin 128) (d : Fin 1024) :
    wctxArr Q C (ix3 b a d) = wctx (qAt Q b) (cAt C b) a d := rfl

end Cert.Attn

end
-- ==== Proof.KStages.lean ====
/-
  The kernel's per-batch arithmetic, one stage at a time, read as functions of a [128, 1024] matrix's entries.

  Each stage is written twice. Once as a term of vector operations in the spelling the kernel body uses — a
  comparison and a select; a column sum, a one-row cast, a square root and a row broadcast; a row maximum, a row
  sum, a one-column cast and a column broadcast — and once as a function of the matrix entries
  `mat v a k = v (a, k)` over the extended reals. The theorems `mat_…` say the two agree: a sum over an axis of the
  vector is the `Finset` sum over that axis's coordinate, a row maximum is the fold of `max` from `-∞`, a value
  cast to one column and broadcast along the rows is that row's value at every column. No stage needs its entries
  finite.
-/
import proofs.«156366_j89361089561148_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Attn

open Idealize.ShloMosaic Idealize.ShloMosaic.ValueIdx

/-- The score matrix's shape [128, 1024], a row [1024], one row [1, 1024], a column [128], one column [128, 1]. -/
abbrev M : Shape := ⟨2, ![128, 1024]⟩
abbrev V1024 : Shape := ⟨1, ![1024]⟩
abbrev R1 : Shape := ⟨2, ![1, 1024]⟩
abbrev V128 : Shape := ⟨1, ![128]⟩
abbrev C1 : Shape := ⟨2, ![128, 1]⟩

/-- A [128, 1024] vector as a function of its two coordinates. -/
def mat (v : FVec Ideal M .f32) : Fin 128 → Fin 1024 → EReal := fun a k => v (ix2 a k)

/-! ## The stages as functions of a matrix's entries -/

def leakyOf (s : Fin 128 → Fin 1024 → EReal) : Fin 128 → Fin 1024 → EReal := fun a k => leaky (s a k)

def logitOf (x : Fin 128 → Fin 1024 → EReal) : Fin 128 → Fin 1024 → EReal := fun a k =>
  Ideal.div (x a k) (Ideal.sqrt (∑ a' : Fin 128, x a' k * x a' k) + Ideal.ofBits .f32 0x322BCC77#32)
    * Ideal.ofBits .f32 0x41A00000#32

def rowMaxOf (lg : Fin 128 → Fin 1024 → EReal) : Fin 128 → EReal := fun a =>
  max (Ideal.ofBits .f32 0xFF800000#32)
    ((Finset.univ : Finset (Fin 1024)).fold max (Ideal.ofBits .f32 0xFF800000#32) (fun k => lg a k))

def softmaxOf (lg : Fin 128 → Fin 1024 → EReal) : Fin 128 → Fin 1024 → EReal := fun a k =>
  Ideal.div (Ideal.exp (lg a k - rowMaxOf lg a)) (∑ k' : Fin 1024, Ideal.exp (lg a k' - rowMaxOf lg a))

def gateBitOf (p : Fin 128 → Fin 1024 → EReal) : Fin 128 → Fin 1024 → BitVec 1 := fun a k =>
  Ideal.cmp .ogt (p a k * Ideal.ofBits .f32 0x44800000#32 - ∑ k' : Fin 1024, p a k') (Ideal.ofBits .f32 0x00000000#32)

def keptOf (p : Fin 128 → Fin 1024 → EReal) : Fin 128 → Fin 1024 → EReal := fun a k =>
  Scalar.select (gateBitOf p a k) (Ideal.ofBits .f32 0x3F800000#32) (Ideal.ofBits .f32 0x00000000#32) * p a k

def reattnOf (p : Fin 128 → Fin 1024 → EReal) : Fin 128 → Fin 1024 → EReal := fun a k =>
  Ideal.div (keptOf p a k) (∑ k' : Fin 1024, keptOf p a k')

/-- The specification's functions are these stages composed. -/
theorem act_eq (q : Fin 128 → Fin 1024 → EReal) (c : Fin 1024 → Fin 1024 → EReal) : act q c = leakyOf (score q c) := rfl
theorem logit_eq (q : Fin 128 → Fin 1024 → EReal) (c : Fin 1024 → Fin 1024 → EReal) : logit q c = logitOf (act q c) := rfl
theorem prob_eq (q : Fin 128 → Fin 1024 → EReal) (c : Fin 1024 → Fin 1024 → EReal) : prob q c = softmaxOf (logit q c) := rfl
theorem reattn_eq (q : Fin 128 → Fin 1024 → EReal) (c : Fin 1024 → Fin 1024 → EReal) : reattn q c = reattnOf (prob q c) := rfl

/-! ## Layout: a column vector cast to one column and broadcast along the rows -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column of row values, cast to one column and broadcast to the matrix, is the row's value at every column. -/
theorem rowBcast_apply (hS : V128.ShapeCasts C1) (hB : C1.Broadcasts M) (r : FVec Ideal V128 .f32) (a : Fin 128) (k : Fin 1024) :
    broadcastTo M (shapeCast C1 r hS) hB (ix2 a k) = r (ix1 a) :=
  (broadcastTo_a1_ab_apply _ hB a k).trans (shapeCast_a_a1_apply r hS a 0)

/-! ## Reductions along one axis of the matrix -/

/-- The column index `k` with row `a'` put back is `(a', k)`. -/
theorem lift0_ix (h : M.Reduces [0] V1024) (k : Fin 1024) (a' : Fin (M.size 0)) :
    h.lift (ix1 k) a' = ix2 (⟨a'.val, a'.isLt⟩ : Fin 128) k := by
  funext c; apply Fin.ext
  fin_cases c <;> rfl

/-- The row index `a` with column `k'` put back is `(a, k')`. -/
theorem lift1_ix (h : M.Reduces [1] V128) (a : Fin 128) (k' : Fin (M.size 1)) :
    h.lift (ix1 a) k' = ix2 a (⟨k'.val, k'.isLt⟩ : Fin 1024) := by
  funext c; apply Fin.ext
  fin_cases c <;> rfl

/-- A sum down the rows, at column `k`. -/
theorem colSum_apply (h : M.Reduces [0] V1024) (hφ : FKind.Formats .f32) (hacc : (0x00000000#32 : BitVec 32) = 0x00000000#32)
    (x : FVec Ideal M .f32) (k : Fin 1024) :
    multiReduction .add [0] V1024 x 0x00000000#32 h hφ hacc (ix1 k) = ∑ a' : Fin 128, x (ix2 a' k) := by
  refine (Ideal.multiReduction_add_single x _ h hφ hacc (ix1 k)).trans ?_
  exact Finset.sum_congr rfl fun a' _ => congrArg x (lift0_ix h k a')

/-- A sum along a row, at row `a`. -/
theorem rowSum_apply (h : M.Reduces [1] V128) (hφ : FKind.Formats .f32) (hacc : (0x00000000#32 : BitVec 32) = 0x00000000#32)
    (x : FVec Ideal M .f32) (a : Fin 128) :
    multiReduction .add [1] V128 x 0x00000000#32 h hφ hacc (ix1 a) = ∑ k' : Fin 1024, x (ix2 a k') := by
  refine (Ideal.multiReduction_add_single x _ h hφ hacc (ix1 a)).trans ?_
  exact Finset.sum_congr rfl fun k' _ => congrArg x (lift1_ix h a k')

/-- A maximum along a row from `-∞`, at row `a`: the fold of `max` over the row's entries. -/
theorem rowMax_apply (h : M.Reduces [1] V128) (hφ : FKind.Formats .f32) (hacc : (0xFF800000#32 : BitVec 32) = 0xFF800000#32)
    (x : FVec Ideal M .f32) (a : Fin 128) :
    multiReduction .maximumf [1] V128 x 0xFF800000#32 h hφ hacc (ix1 a)
      = (Finset.univ : Finset (Fin 1024)).fold max (Ideal.ofBits .f32 0xFF800000#32) (fun k' => x (ix2 a k')) := by
  refine (Ideal.multiReduction_maximumf_single x _ h hφ hacc (ix1 a)).trans ?_
  have hf : (x ∘ h.lift (ix1 a)) = fun k' : Fin 1024 => x (ix2 a k') := funext fun k' => congrArg x (lift1_ix h a k')
  exact congrArg (fun f => Finset.fold max (Ideal.ofBits .f32 0xFF800000#32) f (Finset.univ : Finset (Fin 1024))) hf

/-! ## The stages as vector terms, in the kernel body's spelling -/

/-- The leaky rectifier of a score matrix: a comparison with zero, the product with `0.1`, a select. -/
def leakyVec (v7 : FVec Ideal M .f32) : FVec Ideal M .f32 :=
  select (cmpf .oge v7 (broadcast M (Scalar.ofBits .f32 0x00000000#32))) v7
    (mulf (broadcast M (Scalar.ofBits .f32 0x3DCCCCCD#32)) v7)

theorem mat_leakyVec (v7 : FVec Ideal M .f32) : mat (leakyVec v7) = leakyOf (mat v7) := rfl

/-- Each column divided by its norm over the rows plus ε, times 20. -/
def logitVec (hR : M.Reduces [0] V1024) (hS : V1024.ShapeCasts R1) (hB : R1.Broadcasts M) (v12 : FVec Ideal M .f32) :
    FVec Ideal M .f32 :=
  mulf (divf v12 (broadcastTo M (addf (sqrt (shapeCast R1
      (multiReduction .add [0] V1024 (mulf v12 v12) 0x00000000#32 hR (.inl rfl) rfl) hS))
      (broadcast R1 (Scalar.ofBits .f32 0x322BCC77#32))) hB))
    (broadcast M (Scalar.ofBits .f32 0x41A00000#32))

theorem mat_logitVec (hR : M.Reduces [0] V1024) (hS : V1024.ShapeCasts R1) (hB : R1.Broadcasts M) (v12 : FVec Ideal M .f32) :
    mat (logitVec hR hS hB v12) = logitOf (mat v12) := by
  funext a k
  show Ideal.div (v12 (ix2 a k)) (broadcastTo M (addf (sqrt (shapeCast R1
      (multiReduction .add [0] V1024 (mulf v12 v12) 0x00000000#32 hR (.inl rfl) rfl) hS))
      (broadcast R1 (Scalar.ofBits .f32 0x322BCC77#32))) hB (ix2 a k)) * Ideal.ofBits .f32 0x41A00000#32 = _
  rw [broadcastTo_1b_ab_apply]
  show Ideal.div (v12 (ix2 a k)) (Ideal.sqrt (shapeCast R1
      (multiReduction .add [0] V1024 (mulf v12 v12) 0x00000000#32 hR (.inl rfl) rfl) hS (ix2 (0 : Fin 1) k))
      + Ideal.ofBits .f32 0x322BCC77#32) * Ideal.ofBits .f32 0x41A00000#32 = _
  rw [shapeCast_a_1a_apply, colSum_apply]
  rfl

/-- The exponent's matrix: each entry minus its row's maximum (from `-∞`), exponentiated. -/
def expoVec (hR : M.Reduces [1] V128) (hS : V128.ShapeCasts C1) (hB : C1.Broadcasts M) (v22 : FVec Ideal M .f32) :
    FVec Ideal M .f32 :=
  exp (subf v22 (broadcastTo M (shapeCast C1
      (maximumf (broadcast V128 (Scalar.ofBits .f32 0xFF800000#32))
        (multiReduction .maximumf [1] V128 v22 0xFF800000#32 hR (.inl rfl) rfl)) hS) hB))

theorem expoVec_apply (hR : M.Reduces [1] V128) (hS : V128.ShapeCasts C1) (hB : C1.Broadcasts M) (v22 : FVec Ideal M .f32)
    (a : Fin 128) (k : Fin 1024) :
    expoVec hR hS hB v22 (ix2 a k) = Ideal.exp (mat v22 a k - rowMaxOf (mat v22) a) := by
  show Ideal.exp (v22 (ix2 a k) - broadcastTo M (shapeCast C1
      (maximumf (broadcast V128 (Scalar.ofBits .f32 0xFF800000#32))
        (multiReduction .maximumf [1] V128 v22 0xFF800000#32 hR (.inl rfl) rfl)) hS) hB (ix2 a k)) = _
  rw [rowBcast_apply]
  show Ideal.exp (v22 (ix2 a k) - max (Ideal.ofBits .f32 0xFF800000#32)
      (multiReduction .maximumf [1] V128 v22 0xFF800000#32 hR (.inl rfl) rfl (ix1 a))) = _
  rw [rowMax_apply]
  rfl

/-- The softmax along each row: the exponent's matrix divided by its row sums. -/
def softmaxVec (hR : M.Reduces [1] V128) (hS : V128.ShapeCasts C1) (hB : C1.Broadcasts M) (v22 : FVec Ideal M .f32) :
    FVec Ideal M .f32 :=
  divf (expoVec hR hS hB v22)
    (broadcastTo M (shapeCast C1
      (multiReduction .add [1] V128 (expoVec hR hS hB v22) 0x00000000#32 hR (.inl rfl) rfl) hS) hB)

theorem mat_softmaxVec (hR : M.Reduces [1] V128) (hS : V128.ShapeCasts C1) (hB : C1.Broadcasts M) (v22 : FVec Ideal M .f32) :
    mat (softmaxVec hR hS hB v22) = softmaxOf (mat v22) := by
  funext a k
  show Ideal.div (expoVec hR hS hB v22 (ix2 a k)) (broadcastTo M (shapeCast C1
      (multiReduction .add [1] V128 (expoVec hR hS hB v22) 0x00000000#32 hR (.inl rfl) rfl) hS) hB (ix2 a k)) = _
  rw [rowBcast_apply, rowSum_apply]
  simp only [expoVec_apply]
  rfl

/-- The gate's bit: an entry times 1024 minus its row's sum, compared with zero. -/
def gateBitVec (hR : M.Reduces [1] V128) (hS : V128.ShapeCasts C1) (hB : C1.Broadcasts M) (v33 : FVec Ideal M .f32) : IVec M 1 :=
  cmpf .ogt (subf (mulf v33 (broadcast M (Scalar.ofBits .f32 0x44800000#32)))
      (broadcastTo M (shapeCast C1 (multiReduction .add [1] V128 v33 0x00000000#32 hR (.inl rfl) rfl) hS) hB))
    (broadcast M (Scalar.ofBits .f32 0x00000000#32))

theorem gateBitVec_apply (hR : M.Reduces [1] V128) (hS : V128.ShapeCasts C1) (hB : C1.Broadcasts M) (v33 : FVec Ideal M .f32)
    (a : Fin 128) (k : Fin 1024) : gateBitVec hR hS hB v33 (ix2 a k) = gateBitOf (mat v33) a k := by
  show Ideal.cmp .ogt (v33 (ix2 a k) * Ideal.ofBits .f32 0x44800000#32
      - broadcastTo M (shapeCast C1 (multiReduction .add [1] V128 v33 0x00000000#32 hR (.inl rfl) rfl) hS) hB (ix2 a k))
      (Ideal.ofBits .f32 0x00000000#32) = _
  rw [rowBcast_apply, rowSum_apply]
  rfl

/-- The kept entries: the gate's bit selecting one or zero, times the entry. -/
def keptVec (v33 : FVec Ideal M .f32) (v41 : IVec M 1) (one zero : Ideal .f32) : FVec Ideal M .f32 :=
  mulf (select v41 (broadcast M one) (broadcast M zero)) v33

/-- The kept entries renormalised along each row. -/
def reattnVec (hR : M.Reduces [1] V128) (hS : V128.ShapeCasts C1) (hB : C1.Broadcasts M) (v33 : FVec Ideal M .f32)
    (v41 : IVec M 1) (one zero : Ideal .f32) : FVec Ideal M .f32 :=
  divf (keptVec v33 v41 one zero)
    (broadcastTo M (shapeCast C1 (multiReduction .add [1] V128
      (keptVec v33 v41 one zero) 0x00000000#32 hR (.inl rfl) rfl) hS) hB)

theorem keptVec_apply (hR : M.Reduces [1] V128) (hS : V128.ShapeCasts C1) (hB : C1.Broadcasts M) (v33 : FVec Ideal M .f32)
    (a : Fin 128) (k : Fin 1024) :
    keptVec v33 (gateBitVec hR hS hB v33) (Scalar.ofBits .f32 0x3F800000#32) (Scalar.ofBits .f32 0x00000000#32) (ix2 a k)
      = keptOf (mat v33) a k := by
  show Scalar.select (gateBitVec hR hS hB v33 (ix2 a k)) (Ideal.ofBits .f32 0x3F800000#32) (Ideal.ofBits .f32 0x00000000#32)
      * v33 (ix2 a k) = _
  rw [gateBitVec_apply]
  rfl

theorem mat_reattnVec (hR : M.Reduces [1] V128) (hS : V128.ShapeCasts C1) (hB : C1.Broadcasts M) (v33 : FVec Ideal M .f32) :
    mat (reattnVec hR hS hB v33 (gateBitVec hR hS hB v33) (Scalar.ofBits .f32 0x3F800000#32) (Scalar.ofBits .f32 0x00000000#32))
      = reattnOf (mat v33) := by
  funext a k
  show Ideal.div (keptVec v33 (gateBitVec hR hS hB v33) (Scalar.ofBits .f32 0x3F800000#32) (Scalar.ofBits .f32 0x00000000#32) (ix2 a k))
      (broadcastTo M (shapeCast C1 (multiReduction .add [1] V128
        (keptVec v33 (gateBitVec hR hS hB v33) (Scalar.ofBits .f32 0x3F800000#32) (Scalar.ofBits .f32 0x00000000#32))
        0x00000000#32 hR (.inl rfl) rfl) hS) hB (ix2 a k)) = _
  rw [rowBcast_apply, rowSum_apply]
  simp only [keptVec_apply]
  rfl

end Cert.Attn

end
-- ==== Proof.KPayload.lean ====
/-
  What one trip of the kernel's loop stores, as functions of the two blocks it loads.

  A trip loads one batch's query block `v2` ([1, 128, 1024]) and context block `v5` ([1, 1024, 1024]). Dropping the
  leading unit axis, the first matrix product contracts the last axis of both (every query row against every
  context row): entry `(a, k)` is `Σ_d v2 (0, a, d) · v5 (0, k, d)`, the specification's `score`. The stages of
  KStages.lean then give the softmax matrix (`k0_pay5`), the gate's bits (`k0_pay6`) and the renormalised kept
  entries (`k0_pay1`); the second product contracts the context axis of the kept matrix against the context block's
  rows. A change of float format is the identity on the extended reals, so the two roundings to bf16 in front of
  the second product vanish. The stored values `k0_pay2` and `k0_pay3` put the leading unit axis back.
-/
import proofs.«156366_j89361089561148_2_alg».proof.Proof.Gen.KernelIdeal.Skeleton
import proofs.«156366_j89361089561148_2_alg».proof.Proof.KStages

noncomputable section

namespace Cert.KernelIdeal.KValue

open Idealize.ShloMosaic Idealize.ShloMosaic.ValueIdx
open Cert.KernelIdeal Cert.KernelIdeal.Gen Cert.Attn

/-- A loaded query block and a loaded context block as matrices: the leading unit axis dropped. -/
def qOf (v2 : Vec Ideal S1x128x1024 .f32) : Fin 128 → Fin 1024 → EReal := fun a d => v2 (ix3 (0 : Fin 1) a d)
def cOf (v5 : Vec Ideal S1x1024x1024 .f32) : Fin 1024 → Fin 1024 → EReal := fun k d => v5 (ix3 (0 : Fin 1) k d)

/-- The first product, both operands contracted along their last axis, into the zero accumulator: at `(a, k)`
    the sum over `d` of row `a` of the left times row `k` of the right. -/
theorem matmul1_apply (v3 : FVec Ideal S128x1024 .f32) (v6 : FVec Ideal S1024x1024 .f32) (a : Fin 128) (k : Fin 1024) :
    matmul dot_S128x1024_S1024x1024_S128x1024_1_1_0_0_n_n (some .fp32) v3 v6 (constant S128x1024 .f32 0x00000000#32) (ix2 a k)
      = ∑ d : Fin 1024, v3 (ix2 a d) * v6 (ix2 k d) := by
  refine (Ideal.matmul_constant_zero_apply _ _ v3 v6 (ix2 a k)).trans ?_
  refine ((Equiv.sum_comp (contrEquiv1 dot_S128x1024_S1024x1024_S128x1024_1_1_0_0_n_n 1024 rfl rfl).symm _).symm).trans ?_
  refine Finset.sum_congr rfl fun d _ => ?_
  have hl : dot_S128x1024_S1024x1024_S128x1024_1_1_0_0_n_n.lhsIdx (ix2 a k) ((contrEquiv1 dot_S128x1024_S1024x1024_S128x1024_1_1_0_0_n_n 1024 rfl rfl).symm d) = ix2 a d := by
    funext ax; apply Fin.ext
    match ax with
    | ⟨0, _⟩ => rfl
    | ⟨1, _⟩ =>
      exact (DotDims.lhsIdx_val_of_single _ (cl := (1 : Fin 2)) rfl _ _).trans (contrEquiv1_symm_val dot_S128x1024_S1024x1024_S128x1024_1_1_0_0_n_n 1024 rfl rfl d)
  have hr : dot_S128x1024_S1024x1024_S128x1024_1_1_0_0_n_n.rhsIdx (ix2 a k) ((contrEquiv1 dot_S128x1024_S1024x1024_S128x1024_1_1_0_0_n_n 1024 rfl rfl).symm d) = ix2 k d := by
    funext ax; apply Fin.ext
    match ax with
    | ⟨0, _⟩ => rfl
    | ⟨1, _⟩ =>
      exact (DotDims.rhsIdx_val_of_single _ (cr := (1 : Fin 2)) rfl _ _).trans (contrEquiv1_symm_val dot_S128x1024_S1024x1024_S128x1024_1_1_0_0_n_n 1024 rfl rfl d)
  rw [hl, hr]

/-- The second product, the left's columns against the right's rows, into the zero accumulator: at `(a, d)` the
    sum over `k` of `(a, k)` of the left times `(k, d)` of the right. -/
theorem matmul2_apply {φ₁ φ₂ : FTy} (l : FVec Ideal S128x1024 φ₁) (r : FVec Ideal S1024x1024 φ₂) (a : Fin 128) (d : Fin 1024) :
    matmul dot_S128x1024_S1024x1024_S128x1024_1_0_0_1_n_n none l r (constant S128x1024 .f32 0x00000000#32) (ix2 a d)
      = ∑ k : Fin 1024, l (ix2 a k) * r (ix2 k d) := by
  refine (Ideal.matmul_constant_zero_apply _ _ l r (ix2 a d)).trans ?_
  refine ((Equiv.sum_comp (contrEquiv1 dot_S128x1024_S1024x1024_S128x1024_1_0_0_1_n_n 1024 rfl rfl).symm _).symm).trans ?_
  refine Finset.sum_congr rfl fun k _ => ?_
  have hl : dot_S128x1024_S1024x1024_S128x1024_1_0_0_1_n_n.lhsIdx (ix2 a d) ((contrEquiv1 dot_S128x1024_S1024x1024_S128x1024_1_0_0_1_n_n 1024 rfl rfl).symm k) = ix2 a k := by
    funext ax; apply Fin.ext
    match ax with
    | ⟨0, _⟩ => rfl
    | ⟨1, _⟩ =>
      exact (DotDims.lhsIdx_val_of_single _ (cl := (1 : Fin 2)) rfl _ _).trans (contrEquiv1_symm_val dot_S128x1024_S1024x1024_S128x1024_1_0_0_1_n_n 1024 rfl rfl k)
  have hr : dot_S128x1024_S1024x1024_S128x1024_1_0_0_1_n_n.rhsIdx (ix2 a d) ((contrEquiv1 dot_S128x1024_S1024x1024_S128x1024_1_0_0_1_n_n 1024 rfl rfl).symm k) = ix2 k d := by
    funext ax; apply Fin.ext
    match ax with
    | ⟨0, _⟩ =>
      exact (DotDims.rhsIdx_val_of_single _ (cr := (0 : Fin 2)) rfl _ _).trans (contrEquiv1_symm_val dot_S128x1024_S1024x1024_S128x1024_1_0_0_1_n_n 1024 rfl rfl k)
    | ⟨1, _⟩ => rfl
  rw [hl, hr]

/-- The score matrix of the two loaded blocks, as the kernel body writes it. -/
def scoreVec (v2 : Vec Ideal S1x128x1024 .f32) (v5 : Vec Ideal S1x1024x1024 .f32) : FVec Ideal S128x1024 .f32 :=
  matmul dot_S128x1024_S1024x1024_S128x1024_1_1_0_0_n_n (some .fp32)
    (shapeCast S128x1024 v2 shapeCasts_S1x128x1024_S128x1024 : FVec Ideal S128x1024 .f32) (k0_pay4 v5)
    (constant S128x1024 .f32 0x00000000#32)

theorem pay4_apply (v5 : Vec Ideal S1x1024x1024 .f32) (k d : Fin 1024) : k0_pay4 v5 (ix2 k d) = cOf v5 k d :=
  shapeCast_1ab_ab_apply v5 shapeCasts_S1x1024x1024_S1024x1024 k d

theorem mat_scoreVec (v2 : Vec Ideal S1x128x1024 .f32) (v5 : Vec Ideal S1x1024x1024 .f32) :
    mat (scoreVec v2 v5) = score (qOf v2) (cOf v5) := by
  funext a k
  show matmul dot_S128x1024_S1024x1024_S128x1024_1_1_0_0_n_n (some .fp32)
      (shapeCast S128x1024 v2 shapeCasts_S1x128x1024_S128x1024 : FVec Ideal S128x1024 .f32) (k0_pay4 v5)
      (constant S128x1024 .f32 0x00000000#32) (ix2 a k)
    = ∑ d : Fin 1024, qOf v2 a d * cOf v5 k d
  refine (matmul1_apply _ _ a k).trans (Finset.sum_congr rfl fun d _ => ?_)
  rw [pay4_apply, shapeCast_1ab_ab_apply]
  rfl

/-- The softmax matrix is the stages composed on the score matrix. -/
theorem pay5_eq (v2 : Vec Ideal S1x128x1024 .f32) (v5 : Vec Ideal S1x1024x1024 .f32) :
    k0_pay5 (F := Ideal) v2 v5
      = softmaxVec reduces_S128x1024_S128 shapeCasts_S128_S128x1 broadcasts_S128x1_S128x1024
          (logitVec reduces_S128x1024_S1024 shapeCasts_S1024_S1x1024 broadcasts_S1x1024_S128x1024
            (leakyVec (scoreVec v2 v5))) := rfl

theorem mat_pay5 (v2 : Vec Ideal S1x128x1024 .f32) (v5 : Vec Ideal S1x1024x1024 .f32) :
    mat (k0_pay5 (F := Ideal) v2 v5) = prob (qOf v2) (cOf v5) := by
  rw [pay5_eq, mat_softmaxVec, mat_logitVec, mat_leakyVec, mat_scoreVec]
  rfl

theorem pay6_eq (v2 : Vec Ideal S1x128x1024 .f32) (v5 : Vec Ideal S1x1024x1024 .f32) :
    k0_pay6 (F := Ideal) v2 v5
      = gateBitVec reduces_S128x1024_S128 shapeCasts_S128_S128x1 broadcasts_S128x1_S128x1024 (k0_pay5 (F := Ideal) v2 v5) := rfl

theorem pay1_eq (v33 : FVec Ideal S128x1024 .f32) (v41 : IVec S128x1024 1) (one zero : Ideal .f32) :
    k0_pay1 (F := Ideal) v33 v41 one zero
      = reattnVec reduces_S128x1024_S128 shapeCasts_S128_S128x1 broadcasts_S128x1_S128x1024 v33 v41 one zero := rfl

/-- The renormalised kept entries of a trip: the specification's `reattn` of the two blocks' matrices. -/
theorem mat_pay1 (v2 : Vec Ideal S1x128x1024 .f32) (v5 : Vec Ideal S1x1024x1024 .f32) :
    mat (k0_pay1 (F := Ideal) (k0_pay5 v2 v5) (k0_pay6 v2 v5) (Scalar.ofBits .f32 0x3F800000#32) (Scalar.ofBits .f32 0x00000000#32))
      = reattn (qOf v2) (cOf v5) := by
  rw [pay1_eq, pay6_eq, mat_reattnVec, mat_pay5]
  rfl

/-- What the trip stores into the re-weighted attention block, at `(u, a, k)`. -/
theorem pay2_apply (v2 : Vec Ideal S1x128x1024 .f32) (v5 : Vec Ideal S1x1024x1024 .f32) (u : Fin 1) (a : Fin 128) (k : Fin 1024) :
    k0_pay2 (F := Ideal) (k0_pay5 v2 v5) (k0_pay6 v2 v5) (Scalar.ofBits .f32 0x3F800000#32) (Scalar.ofBits .f32 0x00000000#32) (ix3 u a k)
      = reattn (qOf v2) (cOf v5) a k :=
  (shapeCast_ab_1ab_apply _ shapeCasts_S128x1024_S1x128x1024 u a k).trans (congrFun (congrFun (mat_pay1 v2 v5) a) k)

/-- What the trip stores into the weighted-context block, at `(u, a, d)`. -/
theorem pay3_apply (v2 : Vec Ideal S1x128x1024 .f32) (v5 : Vec Ideal S1x1024x1024 .f32) (u : Fin 1) (a : Fin 128) (d : Fin 1024) :
    k0_pay3 (F := Ideal) (k0_pay4 v5) (k0_pay5 v2 v5) (k0_pay6 v2 v5) (Scalar.ofBits .f32 0x3F800000#32) (Scalar.ofBits .f32 0x00000000#32) (ix3 u a d)
      = wctx (qOf v2) (cOf v5) a d := by
  unfold k0_pay3
  refine (shapeCast_ab_1ab_apply _ shapeCasts_S128x1024_S1x128x1024 u a d).trans ?_
  refine (matmul2_apply _ _ a d).trans (Finset.sum_congr rfl fun k _ => ?_)
  show k0_pay1 (F := Ideal) (k0_pay5 v2 v5) (k0_pay6 v2 v5) _ _ (ix2 a k) * k0_pay4 v5 (ix2 k d) = _
  rw [pay4_apply]
  exact congrArg (· * cOf v5 k d) (congrFun (congrFun (mat_pay1 v2 v5) a) k)

end Cert.KernelIdeal.KValue

end
-- ==== Proof.KTrip.lean ====
/-
  What the kernel body leaves in its two output staging buffers, as functions of its two input blocks.

  A grid point's input blocks hold two batches: `x0` ([2, 128, 1024]) two query matrices, `x1` ([2, 1024, 1024]) two
  context matrices. The body's loop runs once per batch: trip `k` loads slab `k` of each input block (the unit-stride
  rectangle at offset `(k, 0, 0)`), and stores into slab `k` of each output buffer the re-weighted attention and the
  weighted context of that batch's matrices (KPayload.lean). So every piece the run writes is a slab of ONE function of
  the buffer's index — `blockReattn x0 x1` at `(b, a, k)` is the specification's `reattn` of batch `b`'s matrices,
  `blockWctx` likewise — and since the pieces cover the buffer, the buffer ends holding that function.
-/
import proofs.«156366_j89361089561148_2_alg».proof.Proof.Gen.KernelIdeal.Frame
import proofs.«156366_j89361089561148_2_alg».proof.Proof.KPayload
import Idealize.ShloMosaic.Lib.Pipeline.Value
import Idealize.ShloMosaic.Lib.Tactic

noncomputable section

namespace Cert.KernelIdeal.KValue

open Idealize.ShloMosaic Idealize.ShloMosaic.TcCoe Idealize.ShloMosaic.Tactic Idealize.ShloMosaic.ValueIdx Idealize.SL.Sem
open Cert.KernelIdeal Cert.KernelIdeal.Gen Cert.Attn

/-- Batch `b` of a two-batch query block, and of a two-batch context block, as matrices. -/
def blockQ (x0 : Vec Ideal S2x128x1024 .f32) (b : Fin 2) : Fin 128 → Fin 1024 → EReal := fun a d => x0 (ix3 b a d)
def blockC (x1 : Vec Ideal S2x1024x1024 .f32) (b : Fin 2) : Fin 1024 → Fin 1024 → EReal := fun k d => x1 (ix3 b k d)

/-- What the output staging buffers end holding: at `(b, a, ·)`, the specification's functions of batch `b`. -/
def blockReattn (x0 : Vec Ideal S2x128x1024 .f32) (x1 : Vec Ideal S2x1024x1024 .f32) : Vec Ideal S2x128x1024 .f32 :=
  fun y => reattn (blockQ x0 (y 0)) (blockC x1 (y 0)) (y 1) (y 2)
def blockWctx (x0 : Vec Ideal S2x128x1024 .f32) (x1 : Vec Ideal S2x1024x1024 .f32) : Vec Ideal S2x128x1024 .f32 :=
  fun y => wctx (blockQ x0 (y 0)) (blockC x1 (y 0)) (y 1) (y 2)

/-- The loop runs two trips. -/
theorem trip_lt (k : Fin k0_t1_loop.trips) : k.val < 2 := Nat.lt_of_lt_of_le k.isLt k0_t1_abs.2.1

/-- Slab `kv` of a [2, n1, n2] buffer: the unit-stride rectangle at offset `(kv, 0, 0)` places `(u, a, d)` at `(kv, a, d)`. -/
theorem emb_slab {n1 n2 : ℕ} (off : Fin 3 → ℕ) (kv : ℕ) (hoff : off = ![kv, 0, 0]) (hk : kv < 2)
    (inb : ∀ a, off a + (![1, n1, n2] : Fin 3 → ℕ) a ≤ (⟨3, ![2, n1, n2]⟩ : Shape).size a) (u : Fin 1) (a : Fin n1) (d : Fin n2) :
    (Rect.unit (s := ⟨3, ![2, n1, n2]⟩) off ![1, n1, n2] inb).emb (ix3 u a d) = ix3 (⟨kv, hk⟩ : Fin 2) a d := by
  subst hoff
  funext ax; apply Fin.ext
  rw [Rect.emb_apply]
  have hu : u.val = 0 := by omega
  match ax with
  | ⟨0, _⟩ => show kv + 1 * u.val = kv; omega
  | ⟨1, _⟩ => show 0 + 1 * a.val = a.val; omega
  | ⟨2, _⟩ => show 0 + 1 * d.val = d.val; omega

/-- Trip `k`'s load of the query block is batch `k`'s matrix. -/
theorem qOf_ld (x0 : Vec Ideal S2x128x1024 .f32) (k : Fin k0_t1_loop.trips) :
    qOf (View.ld x0 (Rect.unit (s := S2x128x1024) (k0_off1 k) S1x128x1024.size (k0_off1_inb k))) = blockQ x0 ⟨k.val, trip_lt k⟩ := by
  funext a d
  show x0 ((Rect.unit (s := S2x128x1024) (k0_off1 k) S1x128x1024.size (k0_off1_inb k)).emb (ix3 (0 : Fin 1) a d)) = _
  rw [emb_slab (k0_off1 k) k.val (k0_off1_eq k) (trip_lt k) (k0_off1_inb k)]
  rfl

/-- Trip `k`'s load of the context block is batch `k`'s matrix. -/
theorem cOf_ld (x1 : Vec Ideal S2x1024x1024 .f32) (k : Fin k0_t1_loop.trips) :
    cOf (View.ld x1 (Rect.unit (s := S2x1024x1024) (k0_off2 k) S1x1024x1024.size (k0_off2_inb k))) = blockC x1 ⟨k.val, trip_lt k⟩ := by
  funext a d
  show x1 ((Rect.unit (s := S2x1024x1024) (k0_off2 k) S1x1024x1024.size (k0_off2_inb k)).emb (ix3 (0 : Fin 1) a d)) = _
  rw [emb_slab (k0_off2 k) k.val (k0_off2_eq k) (trip_lt k) (k0_off2_inb k)]
  rfl

/-- A stored slab of re-weighted attention is the slab of `blockReattn` its rectangle names. -/
theorem slab_reattn (x0 : Vec Ideal S2x128x1024 .f32) (x1 : Vec Ideal S2x1024x1024 .f32) (k : Fin k0_t1_loop.trips)
    (inb : ∀ a, k0_off1 k a + (![1, 128, 1024] : Fin 3 → ℕ) a ≤ S2x128x1024.size a)
    (v2 : Vec Ideal S1x128x1024 .f32) (v5 : Vec Ideal S1x1024x1024 .f32)
    (h2 : qOf v2 = blockQ x0 ⟨k.val, trip_lt k⟩) (h5 : cOf v5 = blockC x1 ⟨k.val, trip_lt k⟩) (x : S1x128x1024.Idx) :
    k0_pay2 (F := Ideal) (k0_pay5 v2 v5) (k0_pay6 v2 v5) (Scalar.ofBits .f32 0x3F800000#32) (Scalar.ofBits .f32 0x00000000#32) x
      = blockReattn x0 x1 ((Rect.unit (s := S2x128x1024) (k0_off1 k) ![1, 128, 1024] inb).emb x) := by
  obtain ⟨u, a, kk, rfl⟩ : ∃ (u : Fin 1) (a : Fin 128) (kk : Fin 1024), x = ix3 u a kk := ⟨x 0, x 1, x 2, eq_ix3 x⟩
  rw [pay2_apply, h2, h5, emb_slab (k0_off1 k) k.val (k0_off1_eq k) (trip_lt k) inb]
  rfl

/-- A stored slab of weighted context is the slab of `blockWctx` its rectangle names. -/
theorem slab_wctx (x0 : Vec Ideal S2x128x1024 .f32) (x1 : Vec Ideal S2x1024x1024 .f32) (k : Fin k0_t1_loop.trips)
    (inb : ∀ a, k0_off1 k a + (![1, 128, 1024] : Fin 3 → ℕ) a ≤ S2x128x1024.size a)
    (v2 : Vec Ideal S1x128x1024 .f32) (v5 : Vec Ideal S1x1024x1024 .f32)
    (h2 : qOf v2 = blockQ x0 ⟨k.val, trip_lt k⟩) (h5 : cOf v5 = blockC x1 ⟨k.val, trip_lt k⟩) (x : S1x128x1024.Idx) :
    k0_pay3 (F := Ideal) (k0_pay4 v5) (k0_pay5 v2 v5) (k0_pay6 v2 v5) (Scalar.ofBits .f32 0x3F800000#32) (Scalar.ofBits .f32 0x00000000#32) x
      = blockWctx x0 x1 ((Rect.unit (s := S2x128x1024) (k0_off1 k) ![1, 128, 1024] inb).emb x) := by
  obtain ⟨u, a, d, rfl⟩ : ∃ (u : Fin 1) (a : Fin 128) (d : Fin 1024), x = ix3 u a d := ⟨x 0, x 1, x 2, eq_ix3 x⟩
  rw [pay3_apply, h2, h5, emb_slab (k0_off1 k) k.val (k0_off1_eq k) (trip_lt k) inb]
  rfl

section Run

variable (c : Dev nD) (i : grid0.Coords) (arg1 : Memref sig .tc .vmem S2x128x1024 .f32) (harg1 : arg1.IsWhole)
  (arg2 : Memref sig .tc .vmem S2x1024x1024 .f32) (harg2 : arg2.IsWhole) (arg3 : Memref sig .tc .vmem S2x128x1024 .f32) (harg3 : arg3.IsWhole)
  (arg4 : Memref sig .tc .vmem S2x128x1024 .f32) (harg4 : arg4.IsWhole)
  (x0 : Vec Ideal S2x128x1024 .f32) (x1 : Vec Ideal S2x1024x1024 .f32)

/-- One trip's piece for the weighted-context buffer is a slab of `blockWctx`: the trip's definition opened once. -/
theorem trip_pieces_wctx (𝒱 : Variants) (bd : Option 𝒱.V) (k : Fin k0_t1_loop.trips) :
    ∀ p ∈ (trip_k0_t1 (F := Ideal) 𝒱 c bd i arg1 harg1 arg2 harg2 arg3 harg3 arg4 harg4 (harg1.unread x0) (harg2.unread x1) k).1,
      ∀ x : p.1.shape.Idx, p.2 x = blockWctx x0 x1 (p.1.emb x) := by
  unfold trip_k0_t1
  dsimp only
  sl_unfold_run_names
  intro p hp x
  rw [List.mem_singleton] at hp
  subst hp
  simp only [View.readAt_eq_ld, harg1.read_unread, harg2.read_unread]
  exact slab_wctx x0 x1 k _ _ _ (qOf_ld x0 k) (cOf_ld x1 k) x

/-- One trip's piece for the re-weighted attention buffer is a slab of `blockReattn`. -/
theorem trip_pieces_reattn (𝒱 : Variants) (bd : Option 𝒱.V) (k : Fin k0_t1_loop.trips) :
    ∀ p ∈ (trip_k0_t1 (F := Ideal) 𝒱 c bd i arg1 harg1 arg2 harg2 arg3 harg3 arg4 harg4 (harg1.unread x0) (harg2.unread x1) k).2.1,
      ∀ x : p.1.shape.Idx, p.2 x = blockReattn x0 x1 (p.1.emb x) := by
  unfold trip_k0_t1
  dsimp only
  sl_unfold_run_names
  intro p hp x
  rw [List.mem_singleton] at hp
  subst hp
  simp only [View.readAt_eq_ld, harg1.read_unread, harg2.read_unread]
  exact slab_reattn x0 x1 k _ _ _ (qOf_ld x0 k) (cOf_ld x1 k) x

/-- Every piece written by the trips before `n`, for either buffer, is a slab of that buffer's function: by induction
    on `n`, each trip adding its own pieces in front. -/
theorem pb_pieces (𝒱 : Variants) (bd : Option 𝒱.V) : ∀ n : ℕ,
    (∀ p ∈ (pb_k0_t1 (F := Ideal) 𝒱 c bd i arg1 harg1 arg2 harg2 arg3 harg3 arg4 harg4 (harg1.unread x0) (harg2.unread x1) n).1,
      ∀ x : p.1.shape.Idx, p.2 x = blockWctx x0 x1 (p.1.emb x))
    ∧ (∀ p ∈ (pb_k0_t1 (F := Ideal) 𝒱 c bd i arg1 harg1 arg2 harg2 arg3 harg3 arg4 harg4 (harg1.unread x0) (harg2.unread x1) n).2,
      ∀ x : p.1.shape.Idx, p.2 x = blockReattn x0 x1 (p.1.emb x))
  | 0 => ⟨fun p hp => absurd hp List.not_mem_nil, fun p hp => absurd hp List.not_mem_nil⟩
  | n + 1 => by
    have ih := pb_pieces 𝒱 bd n
    rw [pb_k0_t1.eq_2]
    unfold pb_k0_t1Step
    by_cases h : n < k0_t1_loop.trips
    · rw [dif_pos h]
      refine ⟨fun p hp => ?_, fun p hp => ?_⟩
      · rcases List.mem_append.mp hp with hp | hp
        · exact trip_pieces_wctx c i arg1 harg1 arg2 harg2 arg3 harg3 arg4 harg4 x0 x1 𝒱 bd ⟨n, h⟩ p hp
        · exact ih.1 p hp
      · rcases List.mem_append.mp hp with hp | hp
        · exact trip_pieces_reattn c i arg1 harg1 arg2 harg2 arg3 harg3 arg4 harg4 x0 x1 𝒱 bd ⟨n, h⟩ p hp
        · exact ih.2 p hp
    · rw [dif_neg h]
      exact ih

/-- The weighted-context staging buffer after the body: `blockWctx` of the point's input blocks. -/
theorem out2_eq : out0_A_2 (F := Ideal) c i arg1 harg1 arg2 harg2 arg3 harg3 arg4 harg4 x0 x1 = blockWctx x0 x1 := by
  funext y
  unfold out0_A_2
  rw [View.read_writes_eq_canon _ _ _ (cover0_A_2 c i arg1 harg1 arg2 harg2 arg3 harg3 arg4 harg4 x0 x1)]
  refine View.canon_apply_of_pieces (blockWctx x0 x1) _ ?_ y (cover0_A_2 c i arg1 harg1 arg2 harg2 arg3 harg3 arg4 harg4 x0 x1 y)
  unfold kernelRun0_A
  dsimp only
  exact (pb_pieces c i arg1 harg1 arg2 harg2 arg3 harg3 arg4 harg4 x0 x1 Variants.none none _).1

/-- The re-weighted attention staging buffer after the body: `blockReattn` of the point's input blocks. -/
theorem out3_eq : out0_A_3 (F := Ideal) c i arg1 harg1 arg2 harg2 arg3 harg3 arg4 harg4 x0 x1 = blockReattn x0 x1 := by
  funext y
  unfold out0_A_3
  rw [View.read_writes_eq_canon _ _ _ (cover0_A_3 c i arg1 harg1 arg2 harg2 arg3 harg3 arg4 harg4 x0 x1)]
  refine View.canon_apply_of_pieces (blockReattn x0 x1) _ ?_ y (cover0_A_3 c i arg1 harg1 arg2 harg2 arg3 harg3 arg4 harg4 x0 x1 y)
  unfold kernelRun0_A
  dsimp only
  exact (pb_pieces c i arg1 harg1 arg2 harg2 arg3 harg3 arg4 harg4 x0 x1 Variants.none none _).2

end Run

end Cert.KernelIdeal.KValue

end
-- ==== Proof.KArray.lean ====
/-
  From blocks to the whole arrays: what the kernel's two result arrays hold after the run.

  The grid has 64 points; point `t` stages batches `2t` and `2t + 1` of both arguments and writes back the same two
  batches of both results (every window's block index is `(t, 0, 0)`, its block two batches deep). So element
  `(b, a, ·)` of a point's input block is element `(2t + b, a, ·)` of the argument array, and a result block's element
  `(b, a, ·)` lands at `(2t + b, a, ·)`. The body leaves in each output staging buffer the specification's function of
  the block's two batches (KTrip.lean), which is therefore the block of the whole-array function `reattnArr` /
  `wctxArr` of the two argument arrays. The blocks cover the result arrays (batch `b` lies in point `b / 2`'s block),
  so each result array ends holding its whole-array function.
-/
import proofs.«156366_j89361089561148_2_alg».proof.Proof.Gen.KernelIdeal.Value
import proofs.«156366_j89361089561148_2_alg».proof.Proof.KTrip

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.Attn

variable (m : (ℓ : Loc nD τ sig) → Buf (Elt Ideal) ℓ) (ρ : Dev nD → PrngReg)

/-- Every window's block index at point `t` is `(t, 0, 0)`: decided over the 64 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Batch `b` of a two-batch block whose entries are batches `2T`, `2T + 1` of an array is batch `2T + b` of the array. -/
theorem block_reattn_eq (x0 : Vec Ideal S2x128x1024 .f32) (x1 : Vec Ideal S2x1024x1024 .f32)
    (A0 : S128x128x1024.Idx → EReal) (A1 : S128x1024x1024.Idx → EReal) (T : ℕ) (hT : T < 64)
    (h0 : ∀ (b : Fin 2) (a : Fin 128) (d : Fin 1024), x0 (ix3 b a d) = A0 (ix3 (⟨2 * T + b.val, by omega⟩ : Fin 128) a d))
    (h1 : ∀ (b : Fin 2) (k : Fin 1024) (d : Fin 1024), x1 (ix3 b k d) = A1 (ix3 (⟨2 * T + b.val, by omega⟩ : Fin 128) k d))
    (b : Fin 2) (a : Fin 128) (k : Fin 1024) :
    blockReattn x0 x1 (ix3 b a k) = reattnArr A0 A1 (ix3 (⟨2 * T + b.val, by omega⟩ : Fin 128) a k) := by
  have hq : blockQ x0 b = qAt A0 (⟨2 * T + b.val, by omega⟩ : Fin 128) := funext fun a' => funext fun d => h0 b a' d
  have hc : blockC x1 b = cAt A1 (⟨2 * T + b.val, by omega⟩ : Fin 128) := funext fun k' => funext fun d => h1 b k' d
  show reattn (blockQ x0 b) (blockC x1 b) a k = reattn (qAt A0 _) (cAt A1 _) a k
  rw [hq, hc]

theorem block_wctx_eq (x0 : Vec Ideal S2x128x1024 .f32) (x1 : Vec Ideal S2x1024x1024 .f32)
    (A0 : S128x128x1024.Idx → EReal) (A1 : S128x1024x1024.Idx → EReal) (T : ℕ) (hT : T < 64)
    (h0 : ∀ (b : Fin 2) (a : Fin 128) (d : Fin 1024), x0 (ix3 b a d) = A0 (ix3 (⟨2 * T + b.val, by omega⟩ : Fin 128) a d))
    (h1 : ∀ (b : Fin 2) (k : Fin 1024) (d : Fin 1024), x1 (ix3 b k d) = A1 (ix3 (⟨2 * T + b.val, by omega⟩ : Fin 128) k d))
    (b : Fin 2) (a : Fin 128) (d : Fin 1024) :
    blockWctx x0 x1 (ix3 b a d) = wctxArr A0 A1 (ix3 (⟨2 * T + b.val, by omega⟩ : Fin 128) a d) := by
  have hq : blockQ x0 b = qAt A0 (⟨2 * T + b.val, by omega⟩ : Fin 128) := funext fun a' => funext fun d' => h0 b a' d'
  have hc : blockC x1 b = cAt A1 (⟨2 * T + b.val, by omega⟩ : Fin 128) := funext fun k' => funext fun d' => h1 b k' d'
  show wctx (blockQ x0 b) (blockC x1 b) a d = wctx (qAt A0 _) (cAt A1 _) a d
  rw [hq, hc]

theorem t_lt (t : Fin cfg0.N) : t.val < 64 := Nat.lt_of_lt_of_eq t.isLt N_0

/-- The query block staged at point `t`: its batch `b` is batch `2t + b` of the query array. -/
theorem iblk0_apply (c : Dev nD) (t : Fin cfg0.N) (b : Fin 2) (a : Fin 128) (d : Fin 1024) :
    iblk m c 0 t (ix3 b a d) = V m c main_arg0 (ix3 (⟨2 * t.val + b.val, by have := t_lt t; omega⟩ : Fin 128) a d) := by
  obtain ⟨e0, e1, e2, -⟩ := idx_facts t
  show V m c main_arg0 (((cfg0.win 0).blk t).view.emb (ix3 b a d)) = V m c main_arg0 _
  refine congrArg (V m c main_arg0) (funext fun ax => Fin.ext ?_)
  match ax with
  | ⟨0, _⟩ => show win0_0.index t (0 : Fin 3) * 2 + 1 * b.val = 2 * t.val + b.val; omega
  | ⟨1, _⟩ => show win0_0.index t (1 : Fin 3) * 128 + 1 * a.val = a.val; omega
  | ⟨2, _⟩ => show win0_0.index t (2 : Fin 3) * 1024 + 1 * d.val = d.val; omega

/-- The context block staged at point `t`: its batch `b` is batch `2t + b` of the context array. -/
theorem iblk1_apply (c : Dev nD) (t : Fin cfg0.N) (b : Fin 2) (k : Fin 1024) (d : Fin 1024) :
    iblk m c 1 t (ix3 b k d) = V m c main_arg1 (ix3 (⟨2 * t.val + b.val, by have := t_lt t; omega⟩ : Fin 128) k d) := by
  obtain ⟨-, -, -, e0, e1, e2, -⟩ := idx_facts t
  show V m c main_arg1 (((cfg0.win 1).blk t).view.emb (ix3 b k d)) = V m c main_arg1 _
  refine congrArg (V m c main_arg1) (funext fun ax => Fin.ext ?_)
  match ax with
  | ⟨0, _⟩ => show win0_1.index t (0 : Fin 3) * 2 + 1 * b.val = 2 * t.val + b.val; omega
  | ⟨1, _⟩ => show win0_1.index t (1 : Fin 3) * 1024 + 1 * k.val = k.val; omega
  | ⟨2, _⟩ => show win0_1.index t (2 : Fin 3) * 1024 + 1 * d.val = d.val; omega

/-- Where a result block's element lands: `(b, a, e)` of point `t`'s block of the weighted-context array is `(2t + b, a, e)`. -/
theorem emb2 (t : Fin cfg0.N) (b : Fin 2) (a : Fin 128) (e : Fin 1024) :
    ((cfg0.win 2).blk t).view.emb (ix3 b a e) = ix3 (⟨2 * t.val + b.val, by have := t_lt t; omega⟩ : Fin 128) a e := by
  obtain ⟨-, -, -, -, -, -, e0, e1, e2, -⟩ := idx_facts t
  funext ax; apply Fin.ext
  match ax with
  | ⟨0, _⟩ => show win0_2.index t (0 : Fin 3) * 2 + 1 * b.val = 2 * t.val + b.val; omega
  | ⟨1, _⟩ => show win0_2.index t (1 : Fin 3) * 128 + 1 * a.val = a.val; omega
  | ⟨2, _⟩ => show win0_2.index t (2 : Fin 3) * 1024 + 1 * e.val = e.val; omega

theorem emb3 (t : Fin cfg0.N) (b : Fin 2) (a : Fin 128) (e : Fin 1024) :
    ((cfg0.win 3).blk t).view.emb (ix3 b a e) = ix3 (⟨2 * t.val + b.val, by have := t_lt t; omega⟩ : Fin 128) a e := by
  obtain ⟨-, -, -, -, -, -, -, -, -, e0, e1, e2⟩ := idx_facts t
  funext ax; apply Fin.ext
  match ax with
  | ⟨0, _⟩ => show win0_3.index t (0 : Fin 3) * 2 + 1 * b.val = 2 * t.val + b.val; omega
  | ⟨1, _⟩ => show win0_3.index t (1 : Fin 3) * 128 + 1 * a.val = a.val; omega
  | ⟨2, _⟩ => show win0_3.index t (2 : Fin 3) * 1024 + 1 * e.val = e.val; omega

/-- What point `t` writes back to the weighted-context array is block `t` of `wctxArr` of the argument arrays. -/
theorem flushed2_eq (c : Dev nD) (t : Fin cfg0.N) :
    (dats m 0 c).flushed 2 t
      = ((cfg0.win 2).blk t).view.read (Elt Ideal) (wctxArr (V m c main_arg0) (V m c main_arg1)) := by
  rw [Value.flushed2_A, out2_eq]
  funext j
  obtain ⟨b, a, e, rfl⟩ : ∃ (b : Fin 2) (a : Fin 128) (e : Fin 1024), j = ix3 b a e := ⟨j 0, j 1, j 2, eq_ix3 j⟩
  show blockWctx (iblk m c 0 t) (iblk m c 1 t) (ix3 b a e)
      = wctxArr (V m c main_arg0) (V m c main_arg1) (((cfg0.win 2).blk t).view.emb (ix3 b a e))
  rw [emb2]
  exact block_wctx_eq _ _ _ _ t.val (t_lt t) (iblk0_apply m c t) (iblk1_apply m c t) b a e

/-- What point `t` writes back to the re-weighted attention array is block `t` of `reattnArr` of the argument arrays. -/
theorem flushed3_eq (c : Dev nD) (t : Fin cfg0.N) :
    (dats m 0 c).flushed 3 t
      = ((cfg0.win 3).blk t).view.read (Elt Ideal) (reattnArr (V m c main_arg0) (V m c main_arg1)) := by
  rw [Value.flushed3_A, out3_eq]
  funext j
  obtain ⟨b, a, e, rfl⟩ : ∃ (b : Fin 2) (a : Fin 128) (e : Fin 1024), j = ix3 b a e := ⟨j 0, j 1, j 2, eq_ix3 j⟩
  show blockReattn (iblk m c 0 t) (iblk m c 1 t) (ix3 b a e)
      = reattnArr (V m c main_arg0) (V m c main_arg1) (((cfg0.win 3).blk t).view.emb (ix3 b a e))
  rw [emb3]
  exact block_reattn_eq _ _ _ _ t.val (t_lt t) (iblk0_apply m c t) (iblk1_apply m c t) b a e

/-- An index of a result array is in point `t`'s block iff each coordinate is in the block's range on its axis. -/
theorem mem_blk2 (t : Fin cfg0.N) (i : S128x128x1024.Idx) :
    i ∈ ((cfg0.win 2).blk t).view.set ↔ ∀ a : Fin 3, win0_2.index t a * S2x128x1024.size a ≤ (i a).val ∧ (i a).val < win0_2.index t a * S2x128x1024.size a + S2x128x1024.size a := by
  show i ∈ ((View.whole main_v0_0).slice (win0_2.rect t)).set ↔ _
  rw [View.set_slice_whole, Rect.mem_set_unit]
  exact Iff.rfl

theorem mem_blk3 (t : Fin cfg0.N) (i : S128x128x1024.Idx) :
    i ∈ ((cfg0.win 3).blk t).view.set ↔ ∀ a : Fin 3, win0_3.index t a * S2x128x1024.size a ≤ (i a).val ∧ (i a).val < win0_3.index t a * S2x128x1024.size a + S2x128x1024.size a := by
  show i ∈ ((View.whole main_v0_1).slice (win0_3.rect t)).set ↔ _
  rw [View.set_slice_whole, Rect.mem_set_unit]
  exact Iff.rfl

/-- Batch `b` lies in point `b / 2`'s block: the blocks cover the weighted-context array. -/
theorem cover2 (i : S128x128x1024.Idx) : ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 1024 := (i 2).isLt
  have hN : cfg0.N = 64 := N_0
  refine ⟨⟨(i 0).val / 2, by rw [hN]; omega⟩, flush0_2 _, ?_⟩
  rw [mem_blk2]
  obtain ⟨-, -, -, -, -, -, e0, e1, e2, -⟩ := idx_facts ⟨(i 0).val / 2, by rw [hN]; omega⟩
  intro a
  match a with
  | ⟨0, _⟩ => show win0_2.index _ (0 : Fin 3) * 2 ≤ (i 0).val ∧ (i 0).val < win0_2.index _ (0 : Fin 3) * 2 + 2; rw [e0]; dsimp only; omega
  | ⟨1, _⟩ => show win0_2.index _ (1 : Fin 3) * 128 ≤ (i 1).val ∧ (i 1).val < win0_2.index _ (1 : Fin 3) * 128 + 128; rw [e1]; omega
  | ⟨2, _⟩ => show win0_2.index _ (2 : Fin 3) * 1024 ≤ (i 2).val ∧ (i 2).val < win0_2.index _ (2 : Fin 3) * 1024 + 1024; rw [e2]; omega

theorem cover3 (i : S128x128x1024.Idx) : ∃ t : Fin cfg0.N, (cfg0.win 3).flush t = true ∧ i ∈ ((cfg0.win 3).blk t).view.set := by
  have hi0 : (i 0).val < 128 := (i 0).isLt
  have hi1 : (i 1).val < 128 := (i 1).isLt
  have hi2 : (i 2).val < 1024 := (i 2).isLt
  have hN : cfg0.N = 64 := N_0
  refine ⟨⟨(i 0).val / 2, by rw [hN]; omega⟩, flush0_3 _, ?_⟩
  rw [mem_blk3]
  obtain ⟨-, -, -, -, -, -, -, -, -, e0, e1, e2⟩ := idx_facts ⟨(i 0).val / 2, by rw [hN]; omega⟩
  intro a
  match a with
  | ⟨0, _⟩ => show win0_3.index _ (0 : Fin 3) * 2 ≤ (i 0).val ∧ (i 0).val < win0_3.index _ (0 : Fin 3) * 2 + 2; rw [e0]; dsimp only; omega
  | ⟨1, _⟩ => show win0_3.index _ (1 : Fin 3) * 128 ≤ (i 1).val ∧ (i 1).val < win0_3.index _ (1 : Fin 3) * 128 + 128; rw [e1]; omega
  | ⟨2, _⟩ => show win0_3.index _ (2 : Fin 3) * 1024 ≤ (i 2).val ∧ (i 2).val < win0_3.index _ (2 : Fin 3) * 1024 + 1024; rw [e2]; omega

/-- The weighted-context array after the run. -/
theorem final2 (c : Dev nD) :
    (dats m 0 c).arrAt 2 cfg0.N = wctxArr (m ((c : Thread nD τ).loc main_arg0)) (m ((c : Thread nD τ).loc main_arg1)) :=
  (dats m 0 c).arrAt_eq_of_cover 2 (wctxArr (V m c main_arg0) (V m c main_arg1)) (fun t _ => flushed2_eq m c t) cover2

/-- The re-weighted attention array after the run. -/
theorem final3 (c : Dev nD) :
    (dats m 0 c).arrAt 3 cfg0.N = reattnArr (m ((c : Thread nD τ).loc main_arg0)) (m ((c : Thread nD τ).loc main_arg1)) :=
  (dats m 0 c).arrAt_eq_of_cover 3 (reattnArr (V m c main_arg0) (V m c main_arg1)) (fun t _ => flushed3_eq m c t) cover3

/-- The kernel's run, read: every weakly fair execution terminates without fault with the two result arrays at the
    specification's functions of the argument arrays, the arguments unchanged. -/
theorem run : θ_run defs (onTc (τ := τ) (main (F := Ideal))) ⟨m, fun _ => 0, ρ⟩ fun r => ∀ c : Dev nD,
      r.2.mem ((c : Thread nD τ).loc main_v0_0) = wctxArr (m ((c : Thread nD τ).loc main_arg0)) (m ((c : Thread nD τ).loc main_arg1))
      ∧ r.2.mem ((c : Thread nD τ).loc main_v0_1) = reattnArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Value.run_blocks m ρ)

end Cert.KernelIdeal.KValue

end
-- ==== Proof.RefRun.lean ====
/-
  The reference program's run. Its @main is a straight line of sixty host operations once the two outlined calls are
  read at their call sites (the leaky rectifier: the zero, its broadcast, the comparison, the slope converted and
  broadcast, the product, the select; the gate's select: the two scalars broadcast, then the select). Every weakly fair
  execution terminates, and each buffer ends at the fold of the operations' results over the launch contents.
-/
import proofs.«156366_j89361089561148_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's sixty operations, in order, the calls read at their call sites. -/
abbrev ops : List (HloOp τ sig (Elt F)) :=
  [ binary main_arg1 main_arg0 main_v0 ((fun l r => Host.dotGeneral dot_S128x1024x1024_S128x128x1024_S128x1024x128_2_2_1_1_0_0 none l r) : (⟨S128x1024x1024, .f32⟩ : BufTy).Contents (Elt F) → (⟨S128x128x1024, .f32⟩ : BufTy).Contents (Elt F) → (⟨S128x1024x128, .f32⟩ : BufTy).Contents (Elt F)),
    nullary main_cst (constant S_ .f32 0x3DCCCCCD#32),
    TRef.nullary main_call0.cst (constant S_ .f32 0x00000000#32),
    TRef.unary main_call0.cst main_call0.v0 (broadcastInDim S128x1024x128 ![] bcast_S_S128x1024x128),
    TRef.binary (.of main_v0 : TRef sig ⟨S128x1024x128, .f32⟩) main_call0.v0 main_call0.v1 (cmpf .oge),
    TRef.unary (.of main_cst : TRef sig ⟨S_, .f32⟩) main_call0.v2 id,
    TRef.unary main_call0.v2 main_call0.v3 (broadcastInDim S128x1024x128 ![] bcast_S_S128x1024x128),
    TRef.binary main_call0.v3 (.of main_v0 : TRef sig ⟨S128x1024x128, .f32⟩) main_call0.v4 mulf,
    TRef.ternary main_call0.v1 (.of main_v0 : TRef sig ⟨S128x1024x128, .f32⟩) main_call0.v4 main_call0.call0.v0 select,
    binary main_v1 main_v1 main_v2 (mulf : (⟨S128x1024x128, .f32⟩ : BufTy).Contents (Elt F) → (⟨S128x1024x128, .f32⟩ : BufTy).Contents (Elt F) → (⟨S128x1024x128, .f32⟩ : BufTy).Contents (Elt F)),
    nullary main_cst_0 (constant S_ .f32 0x00000000#32),
    binary main_v2 main_cst_0 main_v3 ((fun x v => Host.reduceAdd x v reducesTo_S128x1024x128_S128x1024_d2 h_S_) : (⟨S128x1024x128, .f32⟩ : BufTy).Contents (Elt F) → (⟨S_, .f32⟩ : BufTy).Contents (Elt F) → (⟨S128x1024, .f32⟩ : BufTy).Contents (Elt F)),
    unary main_v3 main_v4 (broadcastInDim S128x1024x1 ![0, 1] bcast_S128x1024_S128x1024x1_0_1 : (⟨S128x1024, .f32⟩ : BufTy).Contents (Elt F) → (⟨S128x1024x1, .f32⟩ : BufTy).Contents (Elt F)),
    unary main_v4 main_v5 (Host.sqrt : (⟨S128x1024x1, .f32⟩ : BufTy).Contents (Elt F) → (⟨S128x1024x1, .f32⟩ : BufTy).Contents (Elt F)),
    nullary main_cst_1 (constant S_ .f32 0x322BCC77#32),
    unary main_cst_1 main_v6 (broadcastInDim S128x1024x1 ![] bcast_S_S128x1024x1 : (⟨S_, .f32⟩ : BufTy).Contents (Elt F) → (⟨S128x1024x1, .f32⟩ : BufTy).Contents (Elt F)),
    binary main_v5 main_v6 main_v7 (addf : (⟨S128x1024x1, .f32⟩ : BufTy).Contents (Elt F) → (⟨S128x1024x1, .f32⟩ : BufTy).Contents (Elt F) → (⟨S128x1024x1, .f32⟩ : BufTy).Contents (Elt F)),
    unary main_v7 main_v8 (broadcastInDim S128x1024x128 ![0, 1, 2] bcast_S128x1024x1_S128x1024x128_0_1_2 : (⟨S128x1024x1, .f32⟩ : BufTy).Contents (Elt F) → (⟨S128x1024x128, .f32⟩ : BufTy).Contents (Elt F)),
    binary main_v1 main_v8 main_v9 (Host.divf : (⟨S128x1024x128, .f32⟩ : BufTy).Contents (Elt F) → (⟨S128x1024x128, .f32⟩ : BufTy).Contents (Elt F) → (⟨S128x1024x128, .f32⟩ : BufTy).Contents (Elt F)),
    unary main_v9 main_v10 ((transpose S128x128x1024 [0, 2, 1] · transposes_S128x1024x128_S128x128x1024_0_2_1) : (⟨S128x1024x128, .f32⟩ : BufTy).Contents (Elt F) → (⟨S128x128x1024, .f32⟩ : BufTy).Contents (Elt F)),
    nullary main_cst_2 (constant S_ .f32 0x41A00000#32),
    unary main_cst_2 main_v11 (broadcastInDim S128x128x1024 ![] bcast_S_S128x128x1024 : (⟨S_, .f32⟩ : BufTy).Contents (Elt F) → (⟨S128x128x1024, .f32⟩ : BufTy).Contents (Elt F)),
    binary main_v10 main_v11 main_v12 (mulf : (⟨S128x128x1024, .f32⟩ : BufTy).Contents (Elt F) → (⟨S128x128x1024, .f32⟩ : BufTy).Contents (Elt F) → (⟨S128x128x1024, .f32⟩ : BufTy).Contents (Elt F)),
    nullary main_cst_3 (constant S_ .f32 0xFF800000#32),
    binary main_v12 main_cst_3 main_v13 ((fun x v => Host.reduce FloatOps.maximumf x v reducesTo_S128x128x1024_S128x128_d2 h_S_) : (⟨S128x128x1024, .f32⟩ : BufTy).Contents (Elt F) → (⟨S_, .f32⟩ : BufTy).Contents (Elt F) → (⟨S128x128, .f32⟩ : BufTy).Contents (Elt F)),
    nullary main_cst_4 (constant S_ .f32 0xFF800000#32),
    unary main_cst_4 main_v14 (broadcastInDim S128x128 ![] bcast_S_S128x128 : (⟨S_, .f32⟩ : BufTy).Contents (Elt F) → (⟨S128x128, .f32⟩ : BufTy).Contents (Elt F)),
    binary main_v14 main_v13 main_v15 (maximumf : (⟨S128x128, .f32⟩ : BufTy).Contents (Elt F) → (⟨S128x128, .f32⟩ : BufTy).Contents (Elt F) → (⟨S128x128, .f32⟩ : BufTy).Contents (Elt F)),
    unary main_v15 main_v16 (broadcastInDim S128x128x1 ![0, 1] bcast_S128x128_S128x128x1_0_1 : (⟨S128x128, .f32⟩ : BufTy).Contents (Elt F) → (⟨S128x128x1, .f32⟩ : BufTy).Contents (Elt F)),
    unary main_v16 main_v17 (broadcastInDim S128x128x1024 ![0, 1, 2] bcast_S128x128x1_S128x128x1024_0_1_2 : (⟨S128x128x1, .f32⟩ : BufTy).Contents (Elt F) → (⟨S128x128x1024, .f32⟩ : BufTy).Contents (Elt F)),
    binary main_v12 main_v17 main_v18 (subf : (⟨S128x128x1024, .f32⟩ : BufTy).Contents (Elt F) → (⟨S128x128x1024, .f32⟩ : BufTy).Contents (Elt F) → (⟨S128x128x1024, .f32⟩ : BufTy).Contents (Elt F)),
    unary main_v18 main_v19 (Host.exp : (⟨S128x128x1024, .f32⟩ : BufTy).Contents (Elt F) → (⟨S128x128x1024, .f32⟩ : BufTy).Contents (Elt F)),
    nullary main_cst_5 (constant S_ .f32 0x00000000#32),
    binary main_v19 main_cst_5 main_v20 ((fun x v => Host.reduceAdd x v reducesTo_S128x128x1024_S128x128_d2 h_S_) : (⟨S128x128x1024, .f32⟩ : BufTy).Contents (Elt F) → (⟨S_, .f32⟩ : BufTy).Contents (Elt F) → (⟨S128x128, .f32⟩ : BufTy).Contents (Elt F)),
    unary main_v20 main_v21 (broadcastInDim S128x128x1 ![0, 1] bcast_S128x128_S128x128x1_0_1 : (⟨S128x128, .f32⟩ : BufTy).Contents (Elt F) → (⟨S128x128x1, .f32⟩ : BufTy).Contents (Elt F)),
    unary main_v21 main_v22 (broadcastInDim S128x128x1024 ![0, 1, 2] bcast_S128x128x1_S128x128x1024_0_1_2 : (⟨S128x128x1, .f32⟩ : BufTy).Contents (Elt F) → (⟨S128x128x1024, .f32⟩ : BufTy).Contents (Elt F)),
    binary main_v19 main_v22 main_v23 (Host.divf : (⟨S128x128x1024, .f32⟩ : BufTy).Contents (Elt F) → (⟨S128x128x1024, .f32⟩ : BufTy).Contents (Elt F) → (⟨S128x128x1024, .f32⟩ : BufTy).Contents (Elt F)),
    nullary main_cst_6 (constant S_ .f32 0x44800000#32),
    unary main_cst_6 main_v24 (broadcastInDim S128x128x1024 ![] bcast_S_S128x128x1024 : (⟨S_, .f32⟩ : BufTy).Contents (Elt F) → (⟨S128x128x1024, .f32⟩ : BufTy).Contents (Elt F)),
    binary main_v23 main_v24 main_v25 (mulf : (⟨S128x128x1024, .f32⟩ : BufTy).Contents (Elt F) → (⟨S128x128x1024, .f32⟩ : BufTy).Contents (Elt F) → (⟨S128x128x1024, .f32⟩ : BufTy).Contents (Elt F)),
    nullary main_cst_7 (constant S_ .f32 0x00000000#32),
    binary main_v23 main_cst_7 main_v26 ((fun x v => Host.reduceAdd x v reducesTo_S128x128x1024_S128x128_d2 h_S_) : (⟨S128x128x1024, .f32⟩ : BufTy).Contents (Elt F) → (⟨S_, .f32⟩ : BufTy).Contents (Elt F) → (⟨S128x128, .f32⟩ : BufTy).Contents (Elt F)),
    unary main_v26 main_v27 (broadcastInDim S128x128x1 ![0, 1] bcast_S128x128_S128x128x1_0_1 : (⟨S128x128, .f32⟩ : BufTy).Contents (Elt F) → (⟨S128x128x1, .f32⟩ : BufTy).Contents (Elt F)),
    unary main_v27 main_v28 (broadcastInDim S128x128x1024 ![0, 1, 2] bcast_S128x128x1_S128x128x1024_0_1_2 : (⟨S128x128x1, .f32⟩ : BufTy).Contents (Elt F) → (⟨S128x128x1024, .f32⟩ : BufTy).Contents (Elt F)),
    binary main_v25 main_v28 main_v29 (subf : (⟨S128x128x1024, .f32⟩ : BufTy).Contents (Elt F) → (⟨S128x128x1024, .f32⟩ : BufTy).Contents (Elt F) → (⟨S128x128x1024, .f32⟩ : BufTy).Contents (Elt F)),
    nullary main_cst_8 (constant S_ .f32 0x00000000#32),
    unary main_cst_8 main_v30 (broadcastInDim S128x128x1024 ![] bcast_S_S128x128x1024 : (⟨S_, .f32⟩ : BufTy).Contents (Elt F) → (⟨S128x128x1024, .f32⟩ : BufTy).Contents (Elt F)),
    binary main_v29 main_v30 main_v31 (cmpf .ogt : (⟨S128x128x1024, .f32⟩ : BufTy).Contents (Elt F) → (⟨S128x128x1024, .f32⟩ : BufTy).Contents (Elt F) → (⟨S128x128x1024, .i1⟩ : BufTy).Contents (Elt F)),
    nullary main_cst_9 (constant S_ .f32 0x3F800000#32),
    nullary main_cst_10 (constant S_ .f32 0x00000000#32),
    TRef.unary (.of main_cst_9 : TRef sig ⟨S_, .f32⟩) main_call1.v0 (broadcastInDim S128x128x1024 ![] bcast_S_S128x128x1024),
    TRef.unary (.of main_cst_10 : TRef sig ⟨S_, .f32⟩) main_call1.v1 (broadcastInDim S128x128x1024 ![] bcast_S_S128x128x1024),
    TRef.ternary (.of main_v31 : TRef sig ⟨S128x128x1024, .i1⟩) main_call1.v0 main_call1.v1 main_call1.v2 select,
    binary main_v32 main_v23 main_v33 (mulf : (⟨S128x128x1024, .f32⟩ : BufTy).Contents (Elt F) → (⟨S128x128x1024, .f32⟩ : BufTy).Contents (Elt F) → (⟨S128x128x1024, .f32⟩ : BufTy).Contents (Elt F)),
    nullary main_cst_11 (constant S_ .f32 0x00000000#32),
    binary main_v33 main_cst_11 main_v34 ((fun x v => Host.reduceAdd x v reducesTo_S128x128x1024_S128x128_d2 h_S_) : (⟨S128x128x1024, .f32⟩ : BufTy).Contents (Elt F) → (⟨S_, .f32⟩ : BufTy).Contents (Elt F) → (⟨S128x128, .f32⟩ : BufTy).Contents (Elt F)),
    unary main_v34 main_v35 (broadcastInDim S128x128x1 ![0, 1] bcast_S128x128_S128x128x1_0_1 : (⟨S128x128, .f32⟩ : BufTy).Contents (Elt F) → (⟨S128x128x1, .f32⟩ : BufTy).Contents (Elt F)),
    unary main_v35 main_v36 (broadcastInDim S128x128x1024 ![0, 1, 2] bcast_S128x128x1_S128x128x1024_0_1_2 : (⟨S128x128x1, .f32⟩ : BufTy).Contents (Elt F) → (⟨S128x128x1024, .f32⟩ : BufTy).Contents (Elt F)),
    binary main_v33 main_v36 main_v37 (Host.divf : (⟨S128x128x1024, .f32⟩ : BufTy).Contents (Elt F) → (⟨S128x128x1024, .f32⟩ : BufTy).Contents (Elt F) → (⟨S128x128x1024, .f32⟩ : BufTy).Contents (Elt F)),
    binary main_v37 main_arg1 main_v38 ((fun l r => Host.dotGeneral dot_S128x128x1024_S128x1024x1024_S128x128x1024_2_1_1_2_0_0 none l r) : (⟨S128x128x1024, .f32⟩ : BufTy).Contents (Elt F) → (⟨S128x1024x1024, .f32⟩ : BufTy).Contents (Elt F) → (⟨S128x128x1024, .f32⟩ : BufTy).Contents (Elt F)) ]

set_option maxRecDepth 2048 in
/-- @main is that straight line: the callees' bodies unfolded at their calls, sequencing reassociated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., ternary_bufs_sub .., binary_bufs_sub .., nullary_bufs_sub .., binary_bufs_sub .., unary_bufs_sub .., unary_bufs_sub .., binary_bufs_sub .., binary_bufs_sub ..⟩

/-- From any memory with zero counters every weakly fair execution of @main terminates, and every buffer ends at the
    fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference's values, one per operation that is not a constant or a scalar's broadcast, each as a function of the
  two argument arrays and written over the ones before it: the run's composed term at a result buffer, named stage
  by stage, so that a value is read at an index one operation at a time.
-/
import proofs.«156366_j89361089561148_2_alg».proof.Proof.Gen.ReferenceIdeal
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-- The pairing of every context row with every query row. -/
def val_v0 (Q : FVec Ideal S128x128x1024 .f32) (C : FVec Ideal S128x1024x1024 .f32) : FVec Ideal S128x1024x128 .f32 :=
  Host.dotGeneral dot_S128x1024x1024_S128x128x1024_S128x1024x128_2_2_1_1_0_0 none C Q

/-- The rectifier's condition: the entry is at least zero. -/
def val_c0v1 (Q : FVec Ideal S128x128x1024 .f32) (C : FVec Ideal S128x1024x1024 .f32) : IVec S128x1024x128 1 :=
  cmpf .oge (val_v0 Q C) (broadcastInDim S128x1024x128 ![] bcast_S_S128x1024x128 (constant (F := Ideal) S_ .f32 0x00000000#32))

/-- The slope times the entry. -/
def val_c0v4 (Q : FVec Ideal S128x128x1024 .f32) (C : FVec Ideal S128x1024x1024 .f32) : FVec Ideal S128x1024x128 .f32 :=
  mulf (broadcastInDim S128x1024x128 ![] bcast_S_S128x1024x128 (id (constant (F := Ideal) S_ .f32 0x3DCCCCCD#32))) (val_v0 Q C)

/-- The leaky rectifier. -/
def val_v1 (Q : FVec Ideal S128x128x1024 .f32) (C : FVec Ideal S128x1024x1024 .f32) : FVec Ideal S128x1024x128 .f32 :=
  select (val_c0v1 Q C) (val_v0 Q C) (val_c0v4 Q C)

/-- Its square. -/
def val_v2 (Q : FVec Ideal S128x128x1024 .f32) (C : FVec Ideal S128x1024x1024 .f32) : FVec Ideal S128x1024x128 .f32 :=
  mulf (val_v1 Q C) (val_v1 Q C)

/-- The squares summed over the query rows. -/
def val_v3 (Q : FVec Ideal S128x128x1024 .f32) (C : FVec Ideal S128x1024x1024 .f32) : FVec Ideal S128x1024 .f32 :=
  Host.reduceAdd (val_v2 Q C) (constant (F := Ideal) S_ .f32 0x00000000#32) reducesTo_S128x1024x128_S128x1024_d2 h_S_

def val_v4 (Q : FVec Ideal S128x128x1024 .f32) (C : FVec Ideal S128x1024x1024 .f32) : FVec Ideal S128x1024x1 .f32 :=
  broadcastInDim S128x1024x1 ![0, 1] bcast_S128x1024_S128x1024x1_0_1 (val_v3 Q C)

/-- The column norm. -/
def val_v5 (Q : FVec Ideal S128x128x1024 .f32) (C : FVec Ideal S128x1024x1024 .f32) : FVec Ideal S128x1024x1 .f32 :=
  Host.sqrt (val_v4 Q C)

/-- Plus ε. -/
def val_v7 (Q : FVec Ideal S128x128x1024 .f32) (C : FVec Ideal S128x1024x1024 .f32) : FVec Ideal S128x1024x1 .f32 :=
  addf (val_v5 Q C) (broadcastInDim S128x1024x1 ![] bcast_S_S128x1024x1 (constant (F := Ideal) S_ .f32 0x322BCC77#32))

def val_v8 (Q : FVec Ideal S128x128x1024 .f32) (C : FVec Ideal S128x1024x1024 .f32) : FVec Ideal S128x1024x128 .f32 :=
  broadcastInDim S128x1024x128 ![0, 1, 2] bcast_S128x1024x1_S128x1024x128_0_1_2 (val_v7 Q C)

/-- The activation over its column norm. -/
def val_v9 (Q : FVec Ideal S128x128x1024 .f32) (C : FVec Ideal S128x1024x1024 .f32) : FVec Ideal S128x1024x128 .f32 :=
  Host.divf (val_v1 Q C) (val_v8 Q C)

/-- Query rows first. -/
def val_v10 (Q : FVec Ideal S128x128x1024 .f32) (C : FVec Ideal S128x1024x1024 .f32) : FVec Ideal S128x128x1024 .f32 :=
  transpose S128x128x1024 [0, 2, 1] (val_v9 Q C) transposes_S128x1024x128_S128x128x1024_0_2_1

/-- The logits. -/
def val_v12 (Q : FVec Ideal S128x128x1024 .f32) (C : FVec Ideal S128x1024x1024 .f32) : FVec Ideal S128x128x1024 .f32 :=
  mulf (val_v10 Q C) (broadcastInDim S128x128x1024 ![] bcast_S_S128x128x1024 (constant (F := Ideal) S_ .f32 0x41A00000#32))

/-- The row maximum from −∞. -/
def val_v13 (Q : FVec Ideal S128x128x1024 .f32) (C : FVec Ideal S128x1024x1024 .f32) : FVec Ideal S128x128 .f32 :=
  Host.reduce FloatOps.maximumf (val_v12 Q C) (constant (F := Ideal) S_ .f32 0xFF800000#32) reducesTo_S128x128x1024_S128x128_d2 h_S_

/-- And once more against −∞. -/
def val_v15 (Q : FVec Ideal S128x128x1024 .f32) (C : FVec Ideal S128x1024x1024 .f32) : FVec Ideal S128x128 .f32 :=
  maximumf (broadcastInDim S128x128 ![] bcast_S_S128x128 (constant (F := Ideal) S_ .f32 0xFF800000#32)) (val_v13 Q C)

def val_v16 (Q : FVec Ideal S128x128x1024 .f32) (C : FVec Ideal S128x1024x1024 .f32) : FVec Ideal S128x128x1 .f32 :=
  broadcastInDim S128x128x1 ![0, 1] bcast_S128x128_S128x128x1_0_1 (val_v15 Q C)

def val_v17 (Q : FVec Ideal S128x128x1024 .f32) (C : FVec Ideal S128x1024x1024 .f32) : FVec Ideal S128x128x1024 .f32 :=
  broadcastInDim S128x128x1024 ![0, 1, 2] bcast_S128x128x1_S128x128x1024_0_1_2 (val_v16 Q C)

def val_v18 (Q : FVec Ideal S128x128x1024 .f32) (C : FVec Ideal S128x1024x1024 .f32) : FVec Ideal S128x128x1024 .f32 :=
  subf (val_v12 Q C) (val_v17 Q C)

/-- The exponentials. -/
def val_v19 (Q : FVec Ideal S128x128x1024 .f32) (C : FVec Ideal S128x1024x1024 .f32) : FVec Ideal S128x128x1024 .f32 :=
  Host.exp (val_v18 Q C)

/-- Their row sums. -/
def val_v20 (Q : FVec Ideal S128x128x1024 .f32) (C : FVec Ideal S128x1024x1024 .f32) : FVec Ideal S128x128 .f32 :=
  Host.reduceAdd (val_v19 Q C) (constant (F := Ideal) S_ .f32 0x00000000#32) reducesTo_S128x128x1024_S128x128_d2 h_S_

def val_v21 (Q : FVec Ideal S128x128x1024 .f32) (C : FVec Ideal S128x1024x1024 .f32) : FVec Ideal S128x128x1 .f32 :=
  broadcastInDim S128x128x1 ![0, 1] bcast_S128x128_S128x128x1_0_1 (val_v20 Q C)

def val_v22 (Q : FVec Ideal S128x128x1024 .f32) (C : FVec Ideal S128x1024x1024 .f32) : FVec Ideal S128x128x1024 .f32 :=
  broadcastInDim S128x128x1024 ![0, 1, 2] bcast_S128x128x1_S128x128x1024_0_1_2 (val_v21 Q C)

/-- The softmax. -/
def val_v23 (Q : FVec Ideal S128x128x1024 .f32) (C : FVec Ideal S128x1024x1024 .f32) : FVec Ideal S128x128x1024 .f32 :=
  Host.divf (val_v19 Q C) (val_v22 Q C)

def val_v25 (Q : FVec Ideal S128x128x1024 .f32) (C : FVec Ideal S128x1024x1024 .f32) : FVec Ideal S128x128x1024 .f32 :=
  mulf (val_v23 Q C) (broadcastInDim S128x128x1024 ![] bcast_S_S128x128x1024 (constant (F := Ideal) S_ .f32 0x44800000#32))

def val_v26 (Q : FVec Ideal S128x128x1024 .f32) (C : FVec Ideal S128x1024x1024 .f32) : FVec Ideal S128x128 .f32 :=
  Host.reduceAdd (val_v23 Q C) (constant (F := Ideal) S_ .f32 0x00000000#32) reducesTo_S128x128x1024_S128x128_d2 h_S_

def val_v27 (Q : FVec Ideal S128x128x1024 .f32) (C : FVec Ideal S128x1024x1024 .f32) : FVec Ideal S128x128x1 .f32 :=
  broadcastInDim S128x128x1 ![0, 1] bcast_S128x128_S128x128x1_0_1 (val_v26 Q C)

def val_v28 (Q : FVec Ideal S128x128x1024 .f32) (C : FVec Ideal S128x1024x1024 .f32) : FVec Ideal S128x128x1024 .f32 :=
  broadcastInDim S128x128x1024 ![0, 1, 2] bcast_S128x128x1_S128x128x1024_0_1_2 (val_v27 Q C)

def val_v29 (Q : FVec Ideal S128x128x1024 .f32) (C : FVec Ideal S128x1024x1024 .f32) : FVec Ideal S128x128x1024 .f32 :=
  subf (val_v25 Q C) (val_v28 Q C)

/-- The gate's condition. -/
def val_v31 (Q : FVec Ideal S128x128x1024 .f32) (C : FVec Ideal S128x1024x1024 .f32) : IVec S128x128x1024 1 :=
  cmpf .ogt (val_v29 Q C) (broadcastInDim S128x128x1024 ![] bcast_S_S128x128x1024 (constant (F := Ideal) S_ .f32 0x00000000#32))

/-- The gate. -/
def val_v32 (Q : FVec Ideal S128x128x1024 .f32) (C : FVec Ideal S128x1024x1024 .f32) : FVec Ideal S128x128x1024 .f32 :=
  select (val_v31 Q C) (broadcastInDim S128x128x1024 ![] bcast_S_S128x128x1024 (constant (F := Ideal) S_ .f32 0x3F800000#32)) (broadcastInDim S128x128x1024 ![] bcast_S_S128x128x1024 (constant (F := Ideal) S_ .f32 0x00000000#32))

/-- The kept probabilities. -/
def val_v33 (Q : FVec Ideal S128x128x1024 .f32) (C : FVec Ideal S128x1024x1024 .f32) : FVec Ideal S128x128x1024 .f32 :=
  mulf (val_v32 Q C) (val_v23 Q C)

/-- Their row sums. -/
def val_v34 (Q : FVec Ideal S128x128x1024 .f32) (C : FVec Ideal S128x1024x1024 .f32) : FVec Ideal S128x128 .f32 :=
  Host.reduceAdd (val_v33 Q C) (constant (F := Ideal) S_ .f32 0x00000000#32) reducesTo_S128x128x1024_S128x128_d2 h_S_

def val_v35 (Q : FVec Ideal S128x128x1024 .f32) (C : FVec Ideal S128x1024x1024 .f32) : FVec Ideal S128x128x1 .f32 :=
  broadcastInDim S128x128x1 ![0, 1] bcast_S128x128_S128x128x1_0_1 (val_v34 Q C)

def val_v36 (Q : FVec Ideal S128x128x1024 .f32) (C : FVec Ideal S128x1024x1024 .f32) : FVec Ideal S128x128x1024 .f32 :=
  broadcastInDim S128x128x1024 ![0, 1, 2] bcast_S128x128x1_S128x128x1024_0_1_2 (val_v35 Q C)

/-- The re-weighted attention. -/
def val_v37 (Q : FVec Ideal S128x128x1024 .f32) (C : FVec Ideal S128x1024x1024 .f32) : FVec Ideal S128x128x1024 .f32 :=
  Host.divf (val_v33 Q C) (val_v36 Q C)

/-- The weighted context. -/
def val_v38 (Q : FVec Ideal S128x128x1024 .f32) (C : FVec Ideal S128x1024x1024 .f32) : FVec Ideal S128x128x1024 .f32 :=
  Host.dotGeneral dot_S128x128x1024_S128x1024x1024_S128x128x1024_2_1_1_2_0_0 none (val_v37 Q C) C

end Cert.ReferenceIdeal.RefValue

end
-- ==== Proof.RefOut37.lean ====
/-
  The fold of the reference's operations at the result buffer `main_v37` is the stage `val_v37` of the two argument
  arrays' launch contents: each operation's result is rewritten at its own buffer and passed over at every other one,
  and what is left is the stages' composition.
-/
import proofs.«156366_j89361089561148_2_alg».proof.Proof.RefRun
import proofs.«156366_j89361089561148_2_alg».proof.Proof.RefStages

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
set_option maxHeartbeats 1000000 in
theorem out_v37 (V : Valuation τ sig (Elt Ideal)) :
    after (ops (F := Ideal)) V (main_v37 : DevRef τ sig)
      = val_v37 (V (main_arg0 : DevRef τ sig)) (V (main_arg1 : DevRef τ sig)) := by
  after_results_simp
  rfl

set_option maxRecDepth 8192 in
theorem out_arg0 (V : Valuation τ sig (Elt Ideal)) :
    after (ops (F := Ideal)) V (main_arg0 : DevRef τ sig) = V (main_arg0 : DevRef τ sig) := by
  after_results_simp

set_option maxRecDepth 8192 in
theorem out_arg1 (V : Valuation τ sig (Elt Ideal)) :
    after (ops (F := Ideal)) V (main_arg1 : DevRef τ sig) = V (main_arg1 : DevRef τ sig) := by
  after_results_simp

end Cert.ReferenceIdeal.RefValue

end
-- ==== Proof.RefOut38.lean ====
/-
  The fold of the reference's operations at the result buffer `main_v38` is the stage `val_v38` of the two argument
  arrays' launch contents: each operation's result is rewritten at its own buffer and passed over at every other one,
  and what is left is the stages' composition.
-/
import proofs.«156366_j89361089561148_2_alg».proof.Proof.RefRun
import proofs.«156366_j89361089561148_2_alg».proof.Proof.RefStages

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
set_option maxHeartbeats 1000000 in
theorem out_v38 (V : Valuation τ sig (Elt Ideal)) :
    after (ops (F := Ideal)) V (main_v38 : DevRef τ sig)
      = val_v38 (V (main_arg0 : DevRef τ sig)) (V (main_arg1 : DevRef τ sig)) := by
  after_results_simp
  rfl

end Cert.ReferenceIdeal.RefValue

end
-- ==== Proof.RefLayout.lean ====
/-
  The reference's layout operations and one-axis reductions read at an index, each for an arbitrary operand:
  a broadcast that appends or fills a unit axis reads the operand at the remaining coordinates, the transpose of the
  last two axes swaps them, a sum over the last axis is the initial value plus the sum of the row, and the maximum
  over the last axis folds `max` over the row from the initial value.
-/
import proofs.«156366_j89361089561148_2_alg».proof.Proof.Gen.ReferenceIdeal
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx

variable {α : Type}

/-- `[128,1024] → [128,1024,1]`: the appended unit axis is dropped. -/
theorem bc_km (x : S128x1024.Idx → α) (b : Fin 128) (k : Fin 1024) (z : Fin 1) :
    broadcastInDim S128x1024x1 ![0, 1] bcast_S128x1024_S128x1024x1_0_1 x (ix3 b k z) = x (ix2 b k) :=
  broadcastInDim_apply _ bcast_S128x1024_S128x1024x1_0_1 x (ix3 b k z) (ix2 b k) (fun a => match a with
    | ⟨0, _⟩ => by show b.val = if (128 : Nat) = 1 then 0 else b.val; rw [if_neg (by decide)]
    | ⟨1, _⟩ => by show k.val = if (1024 : Nat) = 1 then 0 else k.val; rw [if_neg (by decide)])

/-- `[128,1024,1] → [128,1024,128]`: every entry along the last axis reads the one entry of the unit axis. -/
theorem bc_kma (x : S128x1024x1.Idx → α) (b : Fin 128) (k : Fin 1024) (a : Fin 128) :
    broadcastInDim S128x1024x128 ![0, 1, 2] bcast_S128x1024x1_S128x1024x128_0_1_2 x (ix3 b k a) = x (ix3 b k (0 : Fin 1)) :=
  broadcastInDim_apply _ bcast_S128x1024x1_S128x1024x128_0_1_2 x (ix3 b k a) (ix3 b k (0 : Fin 1)) (fun c => match c with
    | ⟨0, _⟩ => by show b.val = if (128 : Nat) = 1 then 0 else b.val; rw [if_neg (by decide)]
    | ⟨1, _⟩ => by show k.val = if (1024 : Nat) = 1 then 0 else k.val; rw [if_neg (by decide)]
    | ⟨2, _⟩ => by show (0 : Nat) = if (1 : Nat) = 1 then 0 else a.val; rw [if_pos rfl])

/-- `[128,128] → [128,128,1]`: the appended unit axis is dropped. -/
theorem bc_ba (x : S128x128.Idx → α) (b a : Fin 128) (z : Fin 1) :
    broadcastInDim S128x128x1 ![0, 1] bcast_S128x128_S128x128x1_0_1 x (ix3 b a z) = x (ix2 b a) :=
  broadcastInDim_apply _ bcast_S128x128_S128x128x1_0_1 x (ix3 b a z) (ix2 b a) (fun c => match c with
    | ⟨0, _⟩ => by show b.val = if (128 : Nat) = 1 then 0 else b.val; rw [if_neg (by decide)]
    | ⟨1, _⟩ => by show a.val = if (128 : Nat) = 1 then 0 else a.val; rw [if_neg (by decide)])

/-- `[128,128,1] → [128,128,1024]`: every entry along the last axis reads the one entry of the unit axis. -/
theorem bc_bak (x : S128x128x1.Idx → α) (b a : Fin 128) (k : Fin 1024) :
    broadcastInDim S128x128x1024 ![0, 1, 2] bcast_S128x128x1_S128x128x1024_0_1_2 x (ix3 b a k) = x (ix3 b a (0 : Fin 1)) :=
  broadcastInDim_apply _ bcast_S128x128x1_S128x128x1024_0_1_2 x (ix3 b a k) (ix3 b a (0 : Fin 1)) (fun c => match c with
    | ⟨0, _⟩ => by show b.val = if (128 : Nat) = 1 then 0 else b.val; rw [if_neg (by decide)]
    | ⟨1, _⟩ => by show a.val = if (128 : Nat) = 1 then 0 else a.val; rw [if_neg (by decide)]
    | ⟨2, _⟩ => by show (0 : Nat) = if (1 : Nat) = 1 then 0 else k.val; rw [if_pos rfl])

/-- The transpose of the last two axes, `[128,1024,128] → [128,128,1024]`: entry `(b, a, k)` is the operand's `(b, k, a)`. -/
theorem tr_ak (x : S128x1024x128.Idx → α) (b a : Fin 128) (k : Fin 1024) :
    transpose S128x128x1024 [0, 2, 1] x transposes_S128x1024x128_S128x128x1024_0_2_1 (ix3 b a k) = x (ix3 b k a) :=
  transpose_apply [0, 2, 1] x transposes_S128x1024x128_S128x128x1024_0_2_1 (ix3 b a k) (ix3 b k a) (fun c => match c with
    | ⟨0, _⟩ => rfl
    | ⟨1, _⟩ => rfl
    | ⟨2, _⟩ => rfl)

/-- The sum over the last axis of a `[128,1024,128]` array: the initial value plus the sum of the row. -/
theorem sum_a (x : FVec Ideal S128x1024x128 .f32) (init : FVec Ideal S_ .f32) (b : Fin 128) (k : Fin 1024) :
    Host.reduceAdd (F := Ideal) x init reducesTo_S128x1024x128_S128x1024_d2 h_S_ (ix2 b k)
      = init (Shape.Idx.first h_S_) + ∑ a : Fin 128, x (ix3 b k a) := by
  simp only [Host.reduceAdd, Ideal.hostReduceAdd_def]
  rw [Ideal.hostReduceAdd_single reducesTo_S128x1024x128_S128x1024_d2 (by decide)]
  refine congrArg (_ + ·) (Finset.sum_congr rfl fun a _ => ?_)
  exact congrArg x (funext fun c => Fin.ext (by match c with | ⟨0, _⟩ => rfl | ⟨1, _⟩ => rfl | ⟨2, _⟩ => rfl))

/-- The sum over the last axis of a `[128,128,1024]` array: the initial value plus the sum of the row. -/
theorem sum_k (x : FVec Ideal S128x128x1024 .f32) (init : FVec Ideal S_ .f32) (b a : Fin 128) :
    Host.reduceAdd (F := Ideal) x init reducesTo_S128x128x1024_S128x128_d2 h_S_ (ix2 b a)
      = init (Shape.Idx.first h_S_) + ∑ k : Fin 1024, x (ix3 b a k) := by
  simp only [Host.reduceAdd, Ideal.hostReduceAdd_def]
  rw [Ideal.hostReduceAdd_single reducesTo_S128x128x1024_S128x128_d2 (by decide)]
  refine congrArg (_ + ·) (Finset.sum_congr rfl fun k _ => ?_)
  exact congrArg x (funext fun c => Fin.ext (by match c with | ⟨0, _⟩ => rfl | ⟨1, _⟩ => rfl | ⟨2, _⟩ => rfl))

/-- The maximum over the last axis of a `[128,128,1024]` array: `max` folded over the row from the initial value. -/
theorem max_k (x : FVec Ideal S128x128x1024 .f32) (init : FVec Ideal S_ .f32) (b a : Fin 128) :
    Host.reduce (FloatOps.maximumf (F := Ideal) (φ := .f32)) x init reducesTo_S128x128x1024_S128x128_d2 h_S_ (ix2 b a)
      = (Finset.univ : Finset (Fin 1024)).fold max (init (Shape.Idx.first h_S_)) (fun k => x (ix3 b a k)) := by
  have h : S128x128x1024.Reduces [2] S128x128 := by decide
  refine (Host.reduce_eq_fold_single (FloatOps.maximumf (F := Ideal) (φ := .f32)) x init
    reducesTo_S128x128x1024_S128x128_d2 h h_S_ (ix2 b a)).trans ?_
  have hf : (x ∘ h.lift (ix2 b a)) = fun k : Fin 1024 => x (ix3 b a k) :=
    funext fun k => congrArg x (funext fun c => Fin.ext (by match c with | ⟨0, _⟩ => rfl | ⟨1, _⟩ => rfl | ⟨2, _⟩ => rfl))
  exact congrArg (fun f => Finset.fold max (init (Shape.Idx.first h_S_)) f (Finset.univ : Finset (Fin 1024))) hf

end Cert.ReferenceIdeal.RefValue

end
-- ==== Proof.RefDot.lean ====
/-
  The reference's two contractions read at an index, each for arbitrary operands. Both contract one axis of extent
  1024 with the batch axis first: the first pairs row `k` of the left operand with row `a` of the right one
  (`(b, k, a) ↦ Σ_d L (b, k, d) · R (b, a, d)`), the second is the batched matrix product
  (`(b, a, d) ↦ Σ_k L (b, a, k) · R (b, k, d)`). The contraction index is re-indexed by its one coordinate.
-/
import proofs.«156366_j89361089561148_2_alg».proof.Proof.Gen.ReferenceIdeal
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The operand indices of the first contraction, coordinate by coordinate -/

theorem lhsA_0 (i : S128x1024x128.Idx) (q : dot_S128x1024x1024_S128x128x1024_S128x1024x128_2_2_1_1_0_0.contr.Idx) :
    (dot_S128x1024x1024_S128x128x1024_S128x1024x128_2_2_1_1_0_0.lhsIdx i q 0).val = (i 0).val := by
  unfold DotDims.lhsIdx
  rw [dif_pos (show (0 : Fin S128x1024x1024.rank) ∈ dot_S128x1024x1024_S128x128x1024_S128x1024x128_2_2_1_1_0_0.lhsBatch by decide)]
  rfl

theorem lhsA_1 (i : S128x1024x128.Idx) (q : dot_S128x1024x1024_S128x128x1024_S128x1024x128_2_2_1_1_0_0.contr.Idx) :
    (dot_S128x1024x1024_S128x128x1024_S128x1024x128_2_2_1_1_0_0.lhsIdx i q 1).val = (i 1).val := by
  unfold DotDims.lhsIdx
  rw [dif_neg (show ¬(1 : Fin S128x1024x1024.rank) ∈ dot_S128x1024x1024_S128x128x1024_S128x1024x128_2_2_1_1_0_0.lhsBatch by decide), dif_pos (show (1 : Fin S128x1024x1024.rank) ∈ dot_S128x1024x1024_S128x128x1024_S128x1024x128_2_2_1_1_0_0.lhsNonContracting by decide)]
  rfl

theorem lhsA_2 (i : S128x1024x128.Idx) (q : dot_S128x1024x1024_S128x128x1024_S128x1024x128_2_2_1_1_0_0.contr.Idx) :
    (dot_S128x1024x1024_S128x128x1024_S128x1024x128_2_2_1_1_0_0.lhsIdx i q 2).val = (q ⟨0, by decide⟩).val :=
  dot_S128x1024x1024_S128x128x1024_S128x1024x128_2_2_1_1_0_0.lhsIdx_val_of_single rfl i q

theorem rhsA_0 (i : S128x1024x128.Idx) (q : dot_S128x1024x1024_S128x128x1024_S128x1024x128_2_2_1_1_0_0.contr.Idx) :
    (dot_S128x1024x1024_S128x128x1024_S128x1024x128_2_2_1_1_0_0.rhsIdx i q 0).val = (i 0).val := by
  unfold DotDims.rhsIdx
  rw [dif_pos (show (0 : Fin S128x128x1024.rank) ∈ dot_S128x1024x1024_S128x128x1024_S128x1024x128_2_2_1_1_0_0.rhsBatch by decide)]
  rfl

theorem rhsA_1 (i : S128x1024x128.Idx) (q : dot_S128x1024x1024_S128x128x1024_S128x1024x128_2_2_1_1_0_0.contr.Idx) :
    (dot_S128x1024x1024_S128x128x1024_S128x1024x128_2_2_1_1_0_0.rhsIdx i q 1).val = (i 2).val := by
  unfold DotDims.rhsIdx
  rw [dif_neg (show ¬(1 : Fin S128x128x1024.rank) ∈ dot_S128x1024x1024_S128x128x1024_S128x1024x128_2_2_1_1_0_0.rhsBatch by decide), dif_pos (show (1 : Fin S128x128x1024.rank) ∈ dot_S128x1024x1024_S128x128x1024_S128x1024x128_2_2_1_1_0_0.rhsNonContracting by decide)]
  rfl

theorem rhsA_2 (i : S128x1024x128.Idx) (q : dot_S128x1024x1024_S128x128x1024_S128x1024x128_2_2_1_1_0_0.contr.Idx) :
    (dot_S128x1024x1024_S128x128x1024_S128x1024x128_2_2_1_1_0_0.rhsIdx i q 2).val = (q ⟨0, by decide⟩).val :=
  dot_S128x1024x1024_S128x128x1024_S128x1024x128_2_2_1_1_0_0.rhsIdx_val_of_single rfl i q

/-- The first contraction at `(b, k, a)`. -/
theorem dotA_apply (L : FVec Ideal S128x1024x1024 .f32) (R : FVec Ideal S128x128x1024 .f32) (b : Fin 128) (k : Fin 1024) (a : Fin 128) :
    Host.dotGeneral (F := Ideal) dot_S128x1024x1024_S128x128x1024_S128x1024x128_2_2_1_1_0_0 none L R (ix3 b k a)
      = ∑ d : Fin 1024, L (ix3 b k d) * R (ix3 b a d) := by
  simp only [Host.dotGeneral]
  rw [Ideal.dotGeneral_apply, ← Equiv.sum_comp (ValueIdx.contrEquiv1 dot_S128x1024x1024_S128x128x1024_S128x1024x128_2_2_1_1_0_0 1024 rfl rfl).symm]
  refine Finset.sum_congr rfl fun d _ => ?_
  have hk := ValueIdx.contrEquiv1_symm_val dot_S128x1024x1024_S128x128x1024_S128x1024x128_2_2_1_1_0_0 1024 rfl rfl d
  have el : dot_S128x1024x1024_S128x128x1024_S128x1024x128_2_2_1_1_0_0.lhsIdx (ix3 b k a) ((ValueIdx.contrEquiv1 dot_S128x1024x1024_S128x128x1024_S128x1024x128_2_2_1_1_0_0 1024 rfl rfl).symm d) = ix3 b k d :=
    funext fun c => Fin.ext (by
      match c with
      | ⟨0, _⟩ => exact lhsA_0 _ _
      | ⟨1, _⟩ => exact lhsA_1 _ _
      | ⟨2, _⟩ => exact (lhsA_2 _ _).trans hk)
  have er : dot_S128x1024x1024_S128x128x1024_S128x1024x128_2_2_1_1_0_0.rhsIdx (ix3 b k a) ((ValueIdx.contrEquiv1 dot_S128x1024x1024_S128x128x1024_S128x1024x128_2_2_1_1_0_0 1024 rfl rfl).symm d) = ix3 b a d :=
    funext fun c => Fin.ext (by
      match c with
      | ⟨0, _⟩ => exact rhsA_0 _ _
      | ⟨1, _⟩ => exact rhsA_1 _ _
      | ⟨2, _⟩ => exact (rhsA_2 _ _).trans hk)
  rw [el, er]

/-! ## The operand indices of the second contraction, coordinate by coordinate -/

theorem lhsB_0 (i : S128x128x1024.Idx) (q : dot_S128x128x1024_S128x1024x1024_S128x128x1024_2_1_1_2_0_0.contr.Idx) :
    (dot_S128x128x1024_S128x1024x1024_S128x128x1024_2_1_1_2_0_0.lhsIdx i q 0).val = (i 0).val := by
  unfold DotDims.lhsIdx
  rw [dif_pos (show (0 : Fin S128x128x1024.rank) ∈ dot_S128x128x1024_S128x1024x1024_S128x128x1024_2_1_1_2_0_0.lhsBatch by decide)]
  rfl

theorem lhsB_1 (i : S128x128x1024.Idx) (q : dot_S128x128x1024_S128x1024x1024_S128x128x1024_2_1_1_2_0_0.contr.Idx) :
    (dot_S128x128x1024_S128x1024x1024_S128x128x1024_2_1_1_2_0_0.lhsIdx i q 1).val = (i 1).val := by
  unfold DotDims.lhsIdx
  rw [dif_neg (show ¬(1 : Fin S128x128x1024.rank) ∈ dot_S128x128x1024_S128x1024x1024_S128x128x1024_2_1_1_2_0_0.lhsBatch by decide), dif_pos (show (1 : Fin S128x128x1024.rank) ∈ dot_S128x128x1024_S128x1024x1024_S128x128x1024_2_1_1_2_0_0.lhsNonContracting by decide)]
  rfl

theorem lhsB_2 (i : S128x128x1024.Idx) (q : dot_S128x128x1024_S128x1024x1024_S128x128x1024_2_1_1_2_0_0.contr.Idx) :
    (dot_S128x128x1024_S128x1024x1024_S128x128x1024_2_1_1_2_0_0.lhsIdx i q 2).val = (q ⟨0, by decide⟩).val :=
  dot_S128x128x1024_S128x1024x1024_S128x128x1024_2_1_1_2_0_0.lhsIdx_val_of_single rfl i q

theorem rhsB_0 (i : S128x128x1024.Idx) (q : dot_S128x128x1024_S128x1024x1024_S128x128x1024_2_1_1_2_0_0.contr.Idx) :
    (dot_S128x128x1024_S128x1024x1024_S128x128x1024_2_1_1_2_0_0.rhsIdx i q 0).val = (i 0).val := by
  unfold DotDims.rhsIdx
  rw [dif_pos (show (0 : Fin S128x1024x1024.rank) ∈ dot_S128x128x1024_S128x1024x1024_S128x128x1024_2_1_1_2_0_0.rhsBatch by decide)]
  rfl

theorem rhsB_1 (i : S128x128x1024.Idx) (q : dot_S128x128x1024_S128x1024x1024_S128x128x1024_2_1_1_2_0_0.contr.Idx) :
    (dot_S128x128x1024_S128x1024x1024_S128x128x1024_2_1_1_2_0_0.rhsIdx i q 1).val = (q ⟨0, by decide⟩).val :=
  dot_S128x128x1024_S128x1024x1024_S128x128x1024_2_1_1_2_0_0.rhsIdx_val_of_single rfl i q

theorem rhsB_2 (i : S128x128x1024.Idx) (q : dot_S128x128x1024_S128x1024x1024_S128x128x1024_2_1_1_2_0_0.contr.Idx) :
    (dot_S128x128x1024_S128x1024x1024_S128x128x1024_2_1_1_2_0_0.rhsIdx i q 2).val = (i 2).val := by
  unfold DotDims.rhsIdx
  rw [dif_neg (show ¬(2 : Fin S128x1024x1024.rank) ∈ dot_S128x128x1024_S128x1024x1024_S128x128x1024_2_1_1_2_0_0.rhsBatch by decide), dif_pos (show (2 : Fin S128x1024x1024.rank) ∈ dot_S128x128x1024_S128x1024x1024_S128x128x1024_2_1_1_2_0_0.rhsNonContracting by decide)]
  rfl

/-- The second contraction at `(b, a, d)`. -/
theorem dotB_apply (L : FVec Ideal S128x128x1024 .f32) (R : FVec Ideal S128x1024x1024 .f32) (b a : Fin 128) (d : Fin 1024) :
    Host.dotGeneral (F := Ideal) dot_S128x128x1024_S128x1024x1024_S128x128x1024_2_1_1_2_0_0 none L R (ix3 b a d)
      = ∑ k : Fin 1024, L (ix3 b a k) * R (ix3 b k d) := by
  simp only [Host.dotGeneral]
  rw [Ideal.dotGeneral_apply, ← Equiv.sum_comp (ValueIdx.contrEquiv1 dot_S128x128x1024_S128x1024x1024_S128x128x1024_2_1_1_2_0_0 1024 rfl rfl).symm]
  refine Finset.sum_congr rfl fun k _ => ?_
  have hk := ValueIdx.contrEquiv1_symm_val dot_S128x128x1024_S128x1024x1024_S128x128x1024_2_1_1_2_0_0 1024 rfl rfl k
  have el : dot_S128x128x1024_S128x1024x1024_S128x128x1024_2_1_1_2_0_0.lhsIdx (ix3 b a d) ((ValueIdx.contrEquiv1 dot_S128x128x1024_S128x1024x1024_S128x128x1024_2_1_1_2_0_0 1024 rfl rfl).symm k) = ix3 b a k :=
    funext fun c => Fin.ext (by
      match c with
      | ⟨0, _⟩ => exact lhsB_0 _ _
      | ⟨1, _⟩ => exact lhsB_1 _ _
      | ⟨2, _⟩ => exact (lhsB_2 _ _).trans hk)
  have er : dot_S128x128x1024_S128x1024x1024_S128x128x1024_2_1_1_2_0_0.rhsIdx (ix3 b a d) ((ValueIdx.contrEquiv1 dot_S128x128x1024_S128x1024x1024_S128x128x1024_2_1_1_2_0_0 1024 rfl rfl).symm k) = ix3 b k d :=
    funext fun c => Fin.ext (by
      match c with
      | ⟨0, _⟩ => exact rhsB_0 _ _
      | ⟨1, _⟩ => exact (rhsB_1 _ _).trans hk
      | ⟨2, _⟩ => exact rhsB_2 _ _)
  rw [el, er]

end Cert.ReferenceIdeal.RefValue

end
-- ==== Proof.RefRead1.lean ====
/-
  The reference's stages up to the logits, read at an index as the functions of one batch's query rows and context
  rows: the pairing of a context row with a query row is the score (its factors in the other order), the rectifier
  gives the activation, the sum of squares over the query rows and the square root plus ε the column norm, and the
  quotient, transposed and scaled, the logit.
-/
import proofs.«156366_j89361089561148_2_alg».proof.Proof.Spec
import proofs.«156366_j89361089561148_2_alg».proof.Proof.RefStages
import proofs.«156366_j89361089561148_2_alg».proof.Proof.RefLayout
import proofs.«156366_j89361089561148_2_alg».proof.Proof.RefDot

noncomputable section

open scoped BigOperators

namespace Cert.ReferenceIdeal.RefValue

open Cert.Attn Cert.ReferenceIdeal Cert.ReferenceIdeal.Gen Idealize.ShloMosaic Idealize.ShloMosaic.ValueIdx

variable (Q : FVec Ideal S128x128x1024 .f32) (C : FVec Ideal S128x1024x1024 .f32)

/-- The pairing at `(b, k, a)` is the score of query row `a` against context row `k`: the same products, each with
    its factors exchanged. -/
theorem rd_v0 (b : Fin 128) (k : Fin 1024) (a : Fin 128) :
    val_v0 Q C (ix3 b k a) = score (qAt Q b) (cAt C b) a k := by
  unfold val_v0
  refine (dotA_apply C Q b k a).trans ?_
  show _ = ∑ d : Fin 1024, Q (ix3 b a d) * C (ix3 b k d)
  exact Finset.sum_congr rfl fun d _ => mul_comm _ _

/-- The rectifier at `(b, k, a)` is the activation. -/
theorem rd_v1 (b : Fin 128) (k : Fin 1024) (a : Fin 128) :
    val_v1 Q C (ix3 b k a) = act (qAt Q b) (cAt C b) a k :=
  congrArg leaky (rd_v0 Q C b k a)

theorem rd_v2 (b : Fin 128) (k : Fin 1024) (a : Fin 128) :
    val_v2 Q C (ix3 b k a) = act (qAt Q b) (cAt C b) a k * act (qAt Q b) (cAt C b) a k := by
  have h := rd_v1 Q C b k a
  show val_v1 Q C (ix3 b k a) * val_v1 Q C (ix3 b k a) = _
  rw [h]

/-- The sum over the query rows starts from the zero word, which is the extended real `0`. -/
theorem rd_v3 (b : Fin 128) (k : Fin 1024) :
    val_v3 Q C (ix2 b k) = ∑ a : Fin 128, act (qAt Q b) (cAt C b) a k * act (qAt Q b) (cAt C b) a k := by
  unfold val_v3
  refine (sum_a (val_v2 Q C) _ b k).trans ?_
  show Ideal.ofBits .f32 0x00000000#32 + _ = _
  rw [Ideal.ofBits_zero_f32, zero_add]
  exact Finset.sum_congr rfl fun a _ => rd_v2 Q C b k a

/-- The column norm: the square root of that sum, plus ε. -/
theorem rd_v7 (b : Fin 128) (k : Fin 1024) (z : Fin 1) :
    val_v7 Q C (ix3 b k z) = colNorm (qAt Q b) (cAt C b) k := by
  have h4 : val_v4 Q C (ix3 b k z) = val_v3 Q C (ix2 b k) := by unfold val_v4; exact bc_km _ b k z
  show Ideal.sqrt (val_v4 Q C (ix3 b k z)) + Ideal.ofBits .f32 0x322BCC77#32 = _
  rw [h4, rd_v3]
  rfl

theorem rd_v9 (b : Fin 128) (k : Fin 1024) (a : Fin 128) :
    val_v9 Q C (ix3 b k a) = Ideal.div (act (qAt Q b) (cAt C b) a k) (colNorm (qAt Q b) (cAt C b) k) := by
  have h8 : val_v8 Q C (ix3 b k a) = val_v7 Q C (ix3 b k (0 : Fin 1)) := by unfold val_v8; exact bc_kma _ b k a
  show Ideal.div (val_v1 Q C (ix3 b k a)) (val_v8 Q C (ix3 b k a)) = _
  rw [h8, rd_v1, rd_v7]

/-- The logit at `(b, a, k)`: the transposed quotient times twenty. -/
theorem rd_v12 (b a : Fin 128) (k : Fin 1024) :
    val_v12 Q C (ix3 b a k) = logit (qAt Q b) (cAt C b) a k := by
  have h10 : val_v10 Q C (ix3 b a k) = val_v9 Q C (ix3 b k a) := by unfold val_v10; exact tr_ak _ b a k
  show val_v10 Q C (ix3 b a k) * Ideal.ofBits .f32 0x41A00000#32 = _
  rw [h10, rd_v9]
  rfl

end Cert.ReferenceIdeal.RefValue

end
-- ==== Proof.RefRead2.lean ====
/-
  The reference's softmax stages read at an index: the row maximum of the logits (folded from −∞, then taken against
  −∞ once more), the exponentials of the logits less it, their row sum, and the quotient.
-/
import proofs.«156366_j89361089561148_2_alg».proof.Proof.RefRead1

noncomputable section

open scoped BigOperators

namespace Cert.ReferenceIdeal.RefValue

open Cert.Attn Cert.ReferenceIdeal Cert.ReferenceIdeal.Gen Idealize.ShloMosaic Idealize.ShloMosaic.ValueIdx

variable (Q : FVec Ideal S128x128x1024 .f32) (C : FVec Ideal S128x1024x1024 .f32)

/-- A row value broadcast along the context axis (through the unit axis) reads the row's entry. -/
theorem bc_row {α : Type} (x : S128x128.Idx → α) (b a : Fin 128) (k : Fin 1024) :
    broadcastInDim S128x128x1024 ![0, 1, 2] bcast_S128x128x1_S128x128x1024_0_1_2
      (broadcastInDim S128x128x1 ![0, 1] bcast_S128x128_S128x128x1_0_1 x) (ix3 b a k) = x (ix2 b a) :=
  (bc_bak _ b a k).trans (bc_ba x b a 0)

/-- The row maximum. -/
theorem rd_v15 (b a : Fin 128) : val_v15 Q C (ix2 b a) = rowMax (qAt Q b) (cAt C b) a := by
  have h13 : val_v13 Q C (ix2 b a)
      = (Finset.univ : Finset (Fin 1024)).fold max (Ideal.ofBits .f32 0xFF800000#32) (fun k => logit (qAt Q b) (cAt C b) a k) := by
    unfold val_v13
    refine (max_k (val_v12 Q C) _ b a).trans ?_
    exact congrArg (fun f => Finset.fold max (Ideal.ofBits .f32 0xFF800000#32) f (Finset.univ : Finset (Fin 1024)))
      (funext fun k => rd_v12 Q C b a k)
  have h14 : broadcastInDim S128x128 ![] bcast_S_S128x128 (constant (F := Ideal) S_ .f32 0xFF800000#32) (ix2 b a)
      = Ideal.ofBits .f32 0xFF800000#32 := rfl
  unfold val_v15
  rw [maximumf_apply, h14, h13]
  rfl

theorem rd_v17 (b a : Fin 128) (k : Fin 1024) : val_v17 Q C (ix3 b a k) = rowMax (qAt Q b) (cAt C b) a := by
  unfold val_v17 val_v16
  exact (bc_row _ b a k).trans (rd_v15 Q C b a)

/-- The exponential of the logit less the row maximum. -/
theorem rd_v19 (b a : Fin 128) (k : Fin 1024) : val_v19 Q C (ix3 b a k) = expo (qAt Q b) (cAt C b) a k := by
  show Ideal.exp (val_v12 Q C (ix3 b a k) - val_v17 Q C (ix3 b a k)) = _
  rw [rd_v12, rd_v17]
  rfl

theorem rd_v20 (b a : Fin 128) : val_v20 Q C (ix2 b a) = ∑ k : Fin 1024, expo (qAt Q b) (cAt C b) a k := by
  unfold val_v20
  refine (sum_k (val_v19 Q C) _ b a).trans ?_
  show Ideal.ofBits .f32 0x00000000#32 + _ = _
  rw [Ideal.ofBits_zero_f32, zero_add]
  exact Finset.sum_congr rfl fun k _ => rd_v19 Q C b a k

theorem rd_v22 (b a : Fin 128) (k : Fin 1024) :
    val_v22 Q C (ix3 b a k) = ∑ k' : Fin 1024, expo (qAt Q b) (cAt C b) a k' := by
  unfold val_v22 val_v21
  exact (bc_row _ b a k).trans (rd_v20 Q C b a)

/-- The softmax over the context axis. -/
theorem rd_v23 (b a : Fin 128) (k : Fin 1024) : val_v23 Q C (ix3 b a k) = prob (qAt Q b) (cAt C b) a k := by
  show Ideal.div (val_v19 Q C (ix3 b a k)) (val_v22 Q C (ix3 b a k)) = _
  rw [rd_v19, rd_v22]
  rfl

end Cert.ReferenceIdeal.RefValue

end
-- ==== Proof.RefRead3.lean ====
/-
  The reference's gating stages and its two results read at an index: the gate compares 1024 times the probability
  less the row's probability sum with zero, the kept probabilities are re-normalised by their row sum (the first
  result), and the second result is the batched product of that array with the context rows. Both result arrays are
  then the specification's at every index.
-/
import proofs.«156366_j89361089561148_2_alg».proof.Proof.RefRead2

noncomputable section

open scoped BigOperators

namespace Cert.ReferenceIdeal.RefValue

open Cert.Attn Cert.ReferenceIdeal Cert.ReferenceIdeal.Gen Idealize.ShloMosaic Idealize.ShloMosaic.ValueIdx

variable (Q : FVec Ideal S128x128x1024 .f32) (C : FVec Ideal S128x1024x1024 .f32)

theorem rd_v26 (b a : Fin 128) : val_v26 Q C (ix2 b a) = ∑ k : Fin 1024, prob (qAt Q b) (cAt C b) a k := by
  unfold val_v26
  refine (sum_k (val_v23 Q C) _ b a).trans ?_
  show Ideal.ofBits .f32 0x00000000#32 + _ = _
  rw [Ideal.ofBits_zero_f32, zero_add]
  exact Finset.sum_congr rfl fun k _ => rd_v23 Q C b a k

theorem rd_v28 (b a : Fin 128) (k : Fin 1024) :
    val_v28 Q C (ix3 b a k) = ∑ k' : Fin 1024, prob (qAt Q b) (cAt C b) a k' := by
  unfold val_v28 val_v27
  exact (bc_row _ b a k).trans (rd_v26 Q C b a)

theorem rd_v29 (b a : Fin 128) (k : Fin 1024) :
    val_v29 Q C (ix3 b a k)
      = prob (qAt Q b) (cAt C b) a k * Ideal.ofBits .f32 0x44800000#32 - ∑ k' : Fin 1024, prob (qAt Q b) (cAt C b) a k' := by
  show val_v23 Q C (ix3 b a k) * Ideal.ofBits .f32 0x44800000#32 - val_v28 Q C (ix3 b a k) = _
  rw [rd_v23, rd_v28]

/-- The gate. -/
theorem rd_v32 (b a : Fin 128) (k : Fin 1024) : val_v32 Q C (ix3 b a k) = gate (qAt Q b) (cAt C b) a k := by
  show Scalar.select (Ideal.cmp .ogt (val_v29 Q C (ix3 b a k)) (Ideal.ofBits .f32 0x00000000#32))
    (Ideal.ofBits .f32 0x3F800000#32) (Ideal.ofBits .f32 0x00000000#32) = _
  rw [rd_v29]
  rfl

/-- The kept probabilities. -/
theorem rd_v33 (b a : Fin 128) (k : Fin 1024) : val_v33 Q C (ix3 b a k) = kept (qAt Q b) (cAt C b) a k := by
  show val_v32 Q C (ix3 b a k) * val_v23 Q C (ix3 b a k) = _
  rw [rd_v32, rd_v23]
  rfl

theorem rd_v34 (b a : Fin 128) : val_v34 Q C (ix2 b a) = ∑ k : Fin 1024, kept (qAt Q b) (cAt C b) a k := by
  unfold val_v34
  refine (sum_k (val_v33 Q C) _ b a).trans ?_
  show Ideal.ofBits .f32 0x00000000#32 + _ = _
  rw [Ideal.ofBits_zero_f32, zero_add]
  exact Finset.sum_congr rfl fun k _ => rd_v33 Q C b a k

theorem rd_v36 (b a : Fin 128) (k : Fin 1024) :
    val_v36 Q C (ix3 b a k) = ∑ k' : Fin 1024, kept (qAt Q b) (cAt C b) a k' := by
  unfold val_v36 val_v35
  exact (bc_row _ b a k).trans (rd_v34 Q C b a)

/-- The re-weighted attention at `(b, a, k)`. -/
theorem rd_v37 (b a : Fin 128) (k : Fin 1024) : val_v37 Q C (ix3 b a k) = reattn (qAt Q b) (cAt C b) a k := by
  show Ideal.div (val_v33 Q C (ix3 b a k)) (val_v36 Q C (ix3 b a k)) = _
  rw [rd_v33, rd_v36]
  rfl

/-- The weighted context at `(b, a, d)`. -/
theorem rd_v38 (b a : Fin 128) (d : Fin 1024) : val_v38 Q C (ix3 b a d) = wctx (qAt Q b) (cAt C b) a d := by
  unfold val_v38
  refine (dotB_apply (val_v37 Q C) C b a d).trans ?_
  show _ = ∑ k : Fin 1024, reattn (qAt Q b) (cAt C b) a k * C (ix3 b k d)
  exact Finset.sum_congr rfl fun k _ => congrArg (· * C (ix3 b k d)) (rd_v37 Q C b a k)

/-- The first result array is the specification's re-weighted attention. -/
theorem val_v37_eq : val_v37 Q C = reattnArr Q C := funext fun i => by
  obtain ⟨b, a, k, rfl⟩ : ∃ (b a : Fin 128) (k : Fin 1024), i = ix3 b a k := ⟨i 0, i 1, i 2, eq_ix3 i⟩
  exact rd_v37 Q C b a k

/-- The second result array is the specification's weighted context. -/
theorem val_v38_eq : val_v38 Q C = wctxArr Q C := funext fun i => by
  obtain ⟨b, a, d, rfl⟩ : ∃ (b a : Fin 128) (d : Fin 1024), i = ix3 b a d := ⟨i 0, i 1, i 2, eq_ix3 i⟩
  exact rd_v38 Q C b a d

end Cert.ReferenceIdeal.RefValue

end
-- ==== Proof.RefValue.lean ====
/-
  The reference's run, read against the specification: every weakly fair execution of the reference terminates
  without fault, its weighted-context result is the specification's `wctxArr` of the two argument arrays' launch
  contents, its re-weighted attention result is `reattnArr` of them, and the arguments are unchanged. The run gives
  each buffer as the fold of the operations over the launch contents; at the two result buffers that fold is the
  composed stage, which is the specification's array index by index.
-/
import proofs.«156366_j89361089561148_2_alg».proof.Proof.RefRun
import proofs.«156366_j89361089561148_2_alg».proof.Proof.RefOut37
import proofs.«156366_j89361089561148_2_alg».proof.Proof.RefOut38
import proofs.«156366_j89361089561148_2_alg».proof.Proof.RefRead3

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

theorem run (m : (l : Loc Cert.ReferenceIdeal.nD Cert.ReferenceIdeal.τ Cert.ReferenceIdeal.sig) → Buf (Elt Ideal) l)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v38)
          = Cert.Attn.wctxArr (m ((c.tc : Thread nD τ).loc main_arg0)) (m ((c.tc : Thread nD τ).loc main_arg1))
      ∧ r.2.mem ((c.tc : Thread nD τ).loc main_v37)
          = Cert.Attn.reattnArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v38).trans ((out_v38 (launchContents m c)).trans (val_v38_eq _ _)),
       (h c main_v37).trans ((out_v37 (launchContents m c)).trans (val_v37_eq _ _)),
       (h c main_arg0).trans (out_arg0 (launchContents m c)),
       (h c main_arg1).trans (out_arg1 (launchContents m c))⟩)
    (run_main m ρ)

end Cert.ReferenceIdeal.RefValue

end
-- ==== Proof.lean ====
/-
  The kernel computes, batch by batch, a re-weighted attention matrix and the context it weights; the reference
  computes the same two arrays with whole-array operations. Over the extended reals the two agree entry by entry.

  Per batch, with `q` the query rows and `c` the context rows, both programs form the scores `Σ_d q a d · c k d` (the
  reference multiplies in the other order and transposes later: commutativity of the product and a re-indexing), pass
  them through the leaky rectifier, divide each context column by its norm over the query rows plus ε, scale by 20,
  take the softmax along the context axis, keep the entries above the row mean, renormalise the kept entries, and
  contract the result against the context rows. Every step is the same operation of the same operands on both sides,
  so no step needs its operands finite: the precondition is never opened. Proof/Spec.lean writes that function once;
  the kernel's two result arrays are read off its generated frame run (Proof/KStages, KPayload, KTrip, KArray), the
  reference's off its own run (the Proof/Ref… modules), and the claims below set the two runs side by side.
-/
import proofs.«156366_j89361089561148_2_alg».proof.Defs
import proofs.«156366_j89361089561148_2_alg».proof.Proof.Gen.Kernel
import proofs.«156366_j89361089561148_2_alg».proof.Proof.Gen.Kernel.Skeleton
import proofs.«156366_j89361089561148_2_alg».proof.Proof.Gen.Kernel.Loops
import proofs.«156366_j89361089561148_2_alg».proof.Proof.Gen.Kernel.Launch
import proofs.«156366_j89361089561148_2_alg».proof.Proof.Gen.Kernel.Points
import proofs.«156366_j89361089561148_2_alg».proof.Proof.Gen.Kernel.Frame
import proofs.«156366_j89361089561148_2_alg».proof.Proof.Gen.KernelIdeal
import proofs.«156366_j89361089561148_2_alg».proof.Proof.Gen.KernelIdeal.Skeleton
import proofs.«156366_j89361089561148_2_alg».proof.Proof.Gen.KernelIdeal.Loops
import proofs.«156366_j89361089561148_2_alg».proof.Proof.Gen.KernelIdeal.Launch
import proofs.«156366_j89361089561148_2_alg».proof.Proof.Gen.KernelIdeal.Points
import proofs.«156366_j89361089561148_2_alg».proof.Proof.Gen.KernelIdeal.Frame
import proofs.«156366_j89361089561148_2_alg».proof.Proof.Gen.KernelIdeal.Value
import proofs.«156366_j89361089561148_2_alg».proof.Proof.Gen.ReferenceIdeal
import proofs.«156366_j89361089561148_2_alg».proof.Proof.Gen.Pre_finite_inputs
import proofs.«156366_j89361089561148_2_alg».proof.Proof.KArray
import proofs.«156366_j89361089561148_2_alg».proof.Proof.RefValue
import Idealize.ShloMosaic.Adequacy
import Idealize.ShloMosaic.Init

noncomputable section

namespace Cert.Proof

open Idealize.ShloMosaic Idealize.SL.Sem

/-- The word-level kernel runs, faults nowhere and leaves its arguments as they were: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.RefValue.run m ρ)

/-- The idealization rewrote no operation: nothing to preserve. -/
theorem preserves : Cert.preserves_Kernel_KernelIdeal := trivial

/-- From memories that agree on the two arguments, both programs end with the first argument unchanged, the
    weighted context at `wctxArr` and the re-weighted attention at `reattnArr` of the argument arrays. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.Attn.wctxArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Attn.reattnArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).2.2.1, (h c).1, (h c).2.1, (h c).2.2.1, (h c).2.2.2⟩)
      (Cert.KernelIdeal.KValue.run m ρ)
  · refine (θ_run Cert.ReferenceIdeal.defs _ _).mono (fun r h c => ?_) (Cert.ReferenceIdeal.RefValue.run m' ρ')
    obtain ⟨h38, h37, h0, h1⟩ := h c
    refine ⟨h0.trans (hagree c).1, ?_, ?_, h0, h1⟩
    · rw [h38, (hagree c).1, (hagree c).2]
    · rw [h37, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
